-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x5 : Shape := ⟨3, ![256, 4096, 5]⟩
abbrev S256x8192x2 : Shape := ⟨3, ![256, 8192, 2]⟩
abbrev S512x122 : Shape := ⟨2, ![512, 122]⟩
abbrev S256x4096x1 : Shape := ⟨3, ![256, 4096, 1]⟩
abbrev S256x4096 : Shape := ⟨2, ![256, 4096]⟩
abbrev S_ : Shape := ⟨0, ![]⟩

class Facts : Prop where
  slices_S256x4096x5_S256x4096x1_0_0_4 : S256x4096x5.Slices ![0, 0, 4] S256x4096x1
  shapeCasts_S256x4096x1_S256x4096 : S256x4096x1.ShapeCasts S256x4096
  bcast_S_S256x4096x5 : S_.BroadcastsInDim S256x4096x5 (![] : Fin 0 → Fin S256x4096x5.rank)
  reducesTo_S256x4096x5_S_d0_1_2 : S256x4096x5.ReducesTo [0, 1, 2] S_
  h_S_ : 0 < S_.numel
  bcast_S_S512x122 : S_.BroadcastsInDim S512x122 (![] : Fin 0 → Fin S512x122.rank)
  reducesTo_S512x122_S_d0_1 : S512x122.ReducesTo [0, 1] S_
  bcast_S_S256x4096 : S_.BroadcastsInDim S256x4096 (![] : Fin 0 → Fin S256x4096.rank)
  reducesTo_S256x4096_S_d0_1 : S256x4096.ReducesTo [0, 1] S_

variable [Facts]

def fn_part1 {F : FTy → Type} [FloatOps F] (main_v2 : IVec S256x4096 32) (main_v15 : IVec S_ 1) (main_v16 : IVec S256x4096 32) : IVec S_ 1 :=
  let main_v17 : IVec S256x4096 1 := cmpi .slt main_v2 main_v16
  let main_c_5 : IVec S_ 1 := constantI S_ 1 1#1
  let main_v18 : IVec S_ 1 := (fun x v => Host.reduce IntOp.andi x v reducesTo_S256x4096_S_d0_1 h_S_) main_v17 main_c_5
  let main_v19 : IVec S_ 1 := andi main_v15 main_v18
  main_v19

def fn {F : FTy → Type} [FloatOps F] (main_arg0 : FVec F S256x4096x5 .f32) (main_arg1 : IVec S256x8192x2 32) (main_arg2 : FVec F S512x122 .f32) : IVec S_ 1 :=
  let main_v0 : FVec F S256x4096x1 .f32 := (extractStridedSlice S256x4096x1 ![0, 0, 4] · slices_S256x4096x5_S256x4096x1_0_0_4) main_arg0
  let main_v1 : FVec F S256x4096 .f32 := shapeCast S256x4096 main_v0 shapeCasts_S256x4096x1_S256x4096
  let main_v2 : IVec S256x4096 32 := fptosi 32 main_v1
  let main_v3 : FVec F S256x4096x5 .f32 := Host.absf main_arg0
  let main_cst : FVec F S_ .f32 := constant S_ .f32 0x7F800000#32
  let main_v4 : FVec F S256x4096x5 .f32 := broadcastInDim S256x4096x5 ![] bcast_S_S256x4096x5 main_cst
  let main_v5 : IVec S256x4096x5 1 := cmpf .olt main_v3 main_v4
  let main_c : IVec S_ 1 := constantI S_ 1 1#1
  let main_v6 : IVec S_ 1 := (fun x v => Host.reduce IntOp.andi x v reducesTo_S256x4096x5_S_d0_1_2 h_S_) main_v5 main_c
  let main_v7 : FVec F S512x122 .f32 := Host.absf main_arg2
  let main_cst_0 : FVec F S_ .f32 := constant S_ .f32 0x7F800000#32
  let main_v8 : FVec F S512x122 .f32 := broadcastInDim S512x122 ![] bcast_S_S512x122 main_cst_0
  let main_v9 : IVec S512x122 1 := cmpf .olt main_v7 main_v8
  let main_c_1 : IVec S_ 1 := constantI S_ 1 1#1
  let main_v10 : IVec S_ 1 := (fun x v => Host.reduce IntOp.andi x v reducesTo_S512x122_S_d0_1 h_S_) main_v9 main_c_1
  let main_v11 : IVec S_ 1 := andi main_v6 main_v10
  let main_c_2 : IVec S_ 32 := constantI S_ 32 0#32
  let main_v12 : IVec S256x4096 32 := broadcastInDim S256x4096 ![] bcast_S_S256x4096 main_c_2
  let main_v13 : IVec S256x4096 1 := cmpi .sge main_v2 main_v12
  let main_c_3 : IVec S_ 1 := constantI S_ 1 1#1
  let main_v14 : IVec S_ 1 := (fun x v => Host.reduce IntOp.andi x v reducesTo_S256x4096_S_d0_1 h_S_) main_v13 main_c_3
  let main_v15 : IVec S_ 1 := andi main_v11 main_v14
  let main_c_4 : IVec S_ 32 := constantI S_ 32 512#32
  let main_v16 : IVec S256x4096 32 := broadcastInDim S256x4096 ![] bcast_S_S256x4096 main_c_4
  fn_part1 (F := F) main_v2 main_v15 main_v16
-- ==== Kernel.lean ====
abbrev S256x4096x5 : Shape := ⟨3, ![256, 4096, 5]⟩
abbrev S256x8192x2 : Shape := ⟨3, ![256, 8192, 2]⟩
abbrev S512x122 : Shape := ⟨2, ![512, 122]⟩
abbrev S256x8192x1 : Shape := ⟨3, ![256, 8192, 1]⟩
abbrev S256x8192 : Shape := ⟨2, ![256, 8192]⟩
abbrev S256 : Shape := ⟨1, ![256]⟩
abbrev S256x1 : Shape := ⟨2, ![256, 1]⟩
abbrev S_ : Shape := ⟨0, ![]⟩
abbrev S2097152 : Shape := ⟨1, ![2097152]⟩
abbrev S1048576 : Shape := ⟨1, ![1048576]⟩
abbrev S2097152x1 : Shape := ⟨2, ![2097152, 1]⟩
abbrev S256x4096 : Shape := ⟨2, ![256, 4096]⟩
abbrev S1 : Shape := ⟨1, ![1]⟩
abbrev S256x4096x128 : Shape := ⟨3, ![256, 4096, 128]⟩
abbrev S32x512x5 : Shape := ⟨3, ![32, 512, 5]⟩
abbrev S32x512 : Shape := ⟨2, ![32, 512]⟩
abbrev S32x512x128 : Shape := ⟨3, ![32, 512, 128]⟩
abbrev S1x512x5 : Shape := ⟨3, ![1, 512, 5]⟩
abbrev S512x5 : Shape := ⟨2, ![512, 5]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x512x1 : Shape := ⟨3, ![1, 512, 1]⟩
abbrev S1x512x122 : Shape := ⟨3, ![1, 512, 122]⟩

abbrev nBuf : Space → Nat
  | .hbm => 26
  | .vmem => 7
  | .smem => 0
  | _ => 0

abbrev bufTy : (tb : Table) → Fin (tcTables nBuf tb) → BufTy
  | .hbm, ⟨0, _⟩ => ⟨S256x4096x5, .f32⟩
  | .hbm, ⟨1, _⟩ => ⟨S256x8192x2, .i32⟩
  | .hbm, ⟨2, _⟩ => ⟨S512x122, .f32⟩
  | .hbm, ⟨3, _⟩ => ⟨S256x8192x1, .i32⟩
  | .hbm, ⟨4, _⟩ => ⟨S256x8192, .i32⟩
  | .hbm, ⟨5, _⟩ => ⟨S256, .i32⟩
  | .hbm, ⟨6, _⟩ => ⟨S256x1, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x8192, .i32⟩
  | .hbm, ⟨11, _⟩ => ⟨S256x8192, .i32⟩
  | .hbm, ⟨12, _⟩ => ⟨S2097152, .i32⟩
  | .hbm, ⟨13, _⟩ => ⟨S_, .f32⟩
  | .hbm, ⟨14, _⟩ => ⟨S2097152, .f32⟩
  | .hbm, ⟨15, _⟩ => ⟨S_, .f32⟩
  | .hbm, ⟨16, _⟩ => ⟨S1048576, .f32⟩
  | .hbm, ⟨17, _⟩ => ⟨S2097152x1, .i32⟩
  | .hbm, ⟨18, _⟩ => ⟨S1048576, .f32⟩
  | .hbm, ⟨19, _⟩ => ⟨S256x4096, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S256, .f32⟩
  | .hbm, ⟨24, _⟩ => ⟨S256x4096, .f32⟩
  | .hbm, ⟨25, _⟩ => ⟨S256x4096x128, .f32⟩
  | .local _ .vmem, ⟨0, _⟩ => ⟨S32x512x5, .f32⟩
  | .local _ .vmem, ⟨1, _⟩ => ⟨S32x512x5, .f32⟩
  | .local _ .vmem, ⟨2, _⟩ => ⟨S32x512, .f32⟩
  | .local _ .vmem, ⟨3, _⟩ => ⟨S32x512, .f32⟩
  | .local _ .vmem, ⟨4, _⟩ => ⟨S512x122, .f32⟩
  | .local _ .vmem, ⟨5, _⟩ => ⟨S32x512x128, .f32⟩
  | .local _ .vmem, ⟨6, _⟩ => ⟨S32x512x128, .f32⟩
  | _, _ => ⟨S256x4096x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v3 : Index := Scalar.indexCast arg6
  let c0_2 : Index := 0#32
  let c0_3 : Index := 0#32
  ![v3.toNat, 0, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let v6 : Index := Scalar.indexCast arg6
  let c0_4 : Index := 0#32
  ![v6.toNat, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let v47 : Index := Scalar.indexCast arg6
  let c0_12 : Index := 0#32
  let c0_13 : Index := 0#32
  ![v47.toNat, 0, 0]
def k0_off4 (k0_t1 : Fin k0_t1_loop.trips) : Fin 3 → Nat :=
  let c0_i32 : BitVec 32 := 0#32
  let c1_i32 : BitVec 32 := 1#32
  let arg6 : BitVec 32 := Scf.iv c0_i32 c1_i32 k0_t1
  let v52 : Index := Scalar.indexCast arg6
  let c0_14 : Index := 0#32
  let c1 : Index := 1#32
  ![v52.toNat, 0, 1]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let v57 : Index := Scalar.indexCast arg6
  let c0_15 : Index := 0#32
  let c2 : Index := 2#32
  ![v57.toNat, 0, 2]
def k0_off6 (k0_t1 : Fin k0_t1_loop.trips) : Fin 3 → Nat :=
  let c0_i32 : BitVec 32 := 0#32
  let c1_i32 : BitVec 32 := 1#32
  let arg6 : BitVec 32 := Scf.iv c0_i32 c1_i32 k0_t1
  let v62 : Index := Scalar.indexCast arg6
  let c0_16 : Index := 0#32
  let c3 : Index := 3#32
  ![v62.toNat, 0, 3]
def k0_off7 (k0_t1 : Fin k0_t1_loop.trips) : Fin 3 → Nat :=
  let c0_i32 : BitVec 32 := 0#32
  let c1_i32 : BitVec 32 := 1#32
  let arg6 : BitVec 32 := Scf.iv c0_i32 c1_i32 k0_t1
  let v67 : Index := Scalar.indexCast arg6
  let c0_17 : Index := 0#32
  let c4 : Index := 4#32
  ![v67.toNat, 0, 4]
def k0_off8 (k0_t1 : Fin k0_t1_loop.trips) : Fin 3 → Nat :=
  let c0_i32 : BitVec 32 := 0#32
  let c1_i32 : BitVec 32 := 1#32
  let arg6 : BitVec 32 := Scf.iv c0_i32 c1_i32 k0_t1
  let v72 : Index := Scalar.indexCast arg6
  let c0_18 : Index := 0#32
  let c5 : Index := 5#32
  ![v72.toNat, 0, 5]
def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let v76 : Index := Scalar.indexCast arg6
  let c0_19 : Index := 0#32
  let c6 : Index := 6#32
  ![v76.toNat, 0, 6]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x122 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S256x8192x2_S256x8192x1_0_0_1 : S256x8192x2.Slices ![0, 0, 1] S256x8192x1
  shapeCasts_S256x8192x1_S256x8192 : S256x8192x1.ShapeCasts S256x8192
  bcast_S256_S256x1_0 : S256.BroadcastsInDim S256x1 (![0] : Fin 1 → Fin S256x1.rank)
  bcast_S_S256x1 : S_.BroadcastsInDim S256x1 (![] : Fin 0 → Fin S256x1.rank)
  bcast_S256x1_S256x8192_0_1 : S256x1.BroadcastsInDim S256x8192 (![0, 1] : Fin 2 → Fin S256x8192.rank)
  shapeCasts_S256x8192_S2097152 : S256x8192.ShapeCasts S2097152
  bcast_S_S2097152 : S_.BroadcastsInDim S2097152 (![] : Fin 0 → Fin S2097152.rank)
  bcast_S_S1048576 : S_.BroadcastsInDim S1048576 (![] : Fin 0 → Fin S1048576.rank)
  bcast_S2097152_S2097152x1_0 : S2097152.BroadcastsInDim S2097152x1 (![0] : Fin 1 → Fin S2097152x1.rank)
  shapeCasts_S1048576_S256x4096 : S1048576.ShapeCasts S256x4096
  bcast_S_S1 : S_.BroadcastsInDim S1 (![] : Fin 0 → Fin S1.rank)
  bcast_S_S256 : S_.BroadcastsInDim S256 (![] : Fin 0 → Fin S256.rank)
  inb_S512x122_S512x122_0_0 : ∀ a, (![0, 0] : Fin 2 → Nat) a + S512x122.size a ≤ S512x122.size a
  h_S512x122 : 0 < S512x122.numel
  bitsLt_bf16_f32 : FTy.bits .bf16 < FTy.bits .f32
  h_S1x512x5 : 0 < S1x512x5.numel
  shapeCasts_S1x512x5_S512x5 : S1x512x5.ShapeCasts S512x5
  h_S1x512 : 0 < S1x512.numel
  shapeCasts_S1x512_S512 : S1x512.ShapeCasts S512
  slices_S512x5_o0_1_S512x1 : S512x5.Slices ![0, 1] S512x1
  shapeCasts_S512x1_S512 : S512x1.ShapeCasts S512
  slices_S512x5_o0_2_S512x1 : S512x5.Slices ![0, 2] S512x1
  slices_S512x5_o0_3_S512x1 : S512x5.Slices ![0, 3] S512x1
  slices_S512x5_o0_4_S512x1 : S512x5.Slices ![0, 4] S512x1
  natLt_1_32 : 1 < 32
  iota_S512x512_d1_w32 : S512x512.Iotas .tc 32 [1]
  shapeCasts_S512_S512x1 : S512.ShapeCasts S512x1
  broadcasts_S512x1_S512x512 : S512x1.Broadcasts S512x512
  h_S1x512x1 : 0 < S1x512x1.numel
  shapeCasts_S1x512x1_S512x1 : S1x512x1.ShapeCasts S512x1
  shapeCasts_S512x1_S1x512x1 : S512x1.ShapeCasts S1x512x1
  h_S1x512x122 : 0 < S1x512x122.numel
  shapeCasts_S1x512x122_S512x122 : S1x512x122.ShapeCasts S512x122
  shapeCasts_S512x122_S1x512x122 : S512x122.ShapeCasts S1x512x122
  scatter_S1048576_S2097152x1_S2097152_n_0_0_1_wf : ScatterDims.WF S1048576 S2097152x1 S2097152 [] [0] [0] 1
  scatter_S256x4096_S1_S256_0_1_1_0_wf : ScatterDims.WF S256x4096 S1 S256 [0] [1] [1] 0
  dot_S512x512_S512x122_S512x122_1_0_0_1_n_n_wf : DotDims.WF S512x512 S512x122 S512x122 [1] [0] [0] [1] [] []
  hrank0 : 0 < grid0.rank
  k0_t1_ok : k0_t1_loop.OK
  k0_off1_inb : ∀ k0_t1 : Fin k0_t1_loop.trips, ∀ a, (k0_off1 k0_t1) a + S1x512x5.size a ≤ S32x512x5.size a
  k0_off2_inb : ∀ k0_t1 : Fin k0_t1_loop.trips, ∀ a, (k0_off2 k0_t1) a + S1x512.size a ≤ S32x512.size a
  k0_off3_inb : ∀ k0_t1 : Fin k0_t1_loop.trips, ∀ a, (k0_off3 k0_t1) a + S1x512x1.size a ≤ S32x512x128.size a
  k0_off4_inb : ∀ k0_t1 : Fin k0_t1_loop.trips, ∀ a, (k0_off4 k0_t1) a + S1x512x1.size a ≤ S32x512x128.size a
  k0_off5_inb : ∀ k0_t1 : Fin k0_t1_loop.trips, ∀ a, (k0_off5 k0_t1) a + S1x512x1.size a ≤ S32x512x128.size a
  k0_off6_inb : ∀ k0_t1 : Fin k0_t1_loop.trips, ∀ a, (k0_off6 k0_t1) a + S1x512x1.size a ≤ S32x512x128.size a
  k0_off7_inb : ∀ k0_t1 : Fin k0_t1_loop.trips, ∀ a, (k0_off7 k0_t1) a + S1x512x1.size a ≤ S32x512x128.size a
  k0_off8_inb : ∀ k0_t1 : Fin k0_t1_loop.trips, ∀ a, (k0_off8 k0_t1) a + S1x512x1.size a ≤ S32x512x128.size a
  k0_off9_inb : ∀ k0_t1 : Fin k0_t1_loop.trips, ∀ a, (k0_off9 k0_t1) a + S1x512x122.size a ≤ S32x512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x5.size a ≤ S256x4096x5.size a
  hwx0_0 : ∀ i : grid0.Coords, EltTy.bits .f32 = 32 ∨ (Rect.block (s := S256x4096x5) S32x512x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x4096.size a
  hwx0_1 : ∀ i : grid0.Coords, EltTy.bits .f32 = 32 ∨ (Rect.block (s := S256x4096) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x122.size a ≤ S512x122.size a
  hwx0_2 : ∀ i : grid0.Coords, EltTy.bits .f32 = 32 ∨ (Rect.block (s := S512x122) S512x122.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512x128.size a ≤ S256x4096x128.size a
  hwx0_3 : ∀ i : grid0.Coords, EltTy.bits .f32 = 32 ∨ (Rect.block (s := S256x4096x128) S32x512x128.size (cc0_transform_3 i) (hinb0_3 i)).WholeWords (EltTy.packing .f32)

variable [Facts₀]

def scatter_S1048576_S2097152x1_S2097152_n_0_0_1 : ScatterDims S1048576 S2097152x1 S2097152 where
  updateWindowDims := []
  insertedWindowDims := [0]
  scatterDimsToOperandDims := [0]
  indexVectorDim := 1
  wf := scatter_S1048576_S2097152x1_S2097152_n_0_0_1_wf
def scatter_S256x4096_S1_S256_0_1_1_0 : ScatterDims S256x4096 S1 S256 where
  updateWindowDims := [0]
  insertedWindowDims := [1]
  scatterDimsToOperandDims := [1]
  indexVectorDim := 0
  wf := scatter_S256x4096_S1_S256_0_1_1_0_wf
def dot_S512x512_S512x122_S512x122_1_0_0_1_n_n : DotDims S512x512 S512x122 S512x122 where
  lhsContracting := [1]
  rhsContracting := [0]
  lhsNonContracting := [0]
  rhsNonContracting := [1]
  lhsBatch := []
  rhsBatch := []
  wf := dot_S512x512_S512x122_S512x122_1_0_0_1_n_n_wf

abbrev win0_0 : Pipeline.Window sig grid0 :=
  Pipeline.Window.ofSpec (Memref.whole main_arg0) S32x512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x122.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S32x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x4096x5 : Shape := ⟨3, ![256, 4096, 5]⟩
abbrev S256x8192x2 : Shape := ⟨3, ![256, 8192, 2]⟩
abbrev S512x122 : Shape := ⟨2, ![512, 122]⟩
abbrev S256x4096x1 : Shape := ⟨3, ![256, 4096, 1]⟩
abbrev S256x4096 : Shape := ⟨2, ![256, 4096]⟩
abbrev S_ : Shape := ⟨0, ![]⟩
abbrev S256x8192x1 : Shape := ⟨3, ![256, 8192, 1]⟩
abbrev S256x8192 : Shape := ⟨2, ![256, 8192]⟩
abbrev S256 : Shape := ⟨1, ![256]⟩
abbrev S256x1 : Shape := ⟨2, ![256, 1]⟩
abbrev S2097152 : Shape := ⟨1, ![2097152]⟩
abbrev S1048576 : Shape := ⟨1, ![1048576]⟩
abbrev S2097152x1 : Shape := ⟨2, ![2097152, 1]⟩
abbrev S1 : Shape := ⟨1, ![1]⟩
abbrev S256x4096x122 : Shape := ⟨3, ![256, 4096, 122]⟩
abbrev S256x4096x128 : Shape := ⟨3, ![256, 4096, 128]⟩

abbrev nBuf : Space → Nat
  | .hbm => 72
  | .vmem => 0
  | .smem => 0
  | _ => 0

abbrev bufTy : (tb : Table) → Fin (tcTables nBuf tb) → BufTy
  | .hbm, ⟨0, _⟩ => ⟨S256x4096x5, .f32⟩
  | .hbm, ⟨1, _⟩ => ⟨S256x8192x2, .i32⟩
  | .hbm, ⟨2, _⟩ => ⟨S512x122, .f32⟩
  | .hbm, ⟨3, _⟩ => ⟨S256x4096x1, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S256x4096, .f32⟩
  | .hbm, ⟨8, _⟩ => ⟨S256x4096, .f32⟩
  | .hbm, ⟨9, _⟩ => ⟨S_, .f32⟩
  | .hbm, ⟨10, _⟩ => ⟨S256x4096, .f32⟩
  | .hbm, ⟨11, _⟩ => ⟨S256x4096, .i1⟩
  | .hbm, ⟨12, _⟩ => ⟨S_, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S256x4096, .f32⟩
  | .hbm, ⟨26, _⟩ => ⟨S256x4096, .f32⟩
  | .hbm, ⟨27, _⟩ => ⟨S256x8192x1, .i32⟩
  | .hbm, ⟨28, _⟩ => ⟨S256x8192, .i32⟩
  | .hbm, ⟨29, _⟩ => ⟨S256, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i32⟩
  | .hbm, ⟨34, _⟩ => ⟨S256x8192, .i32⟩
  | .hbm, ⟨35, _⟩ => ⟨S256x8192, .i32⟩
  | .hbm, ⟨36, _⟩ => ⟨S2097152, .i32⟩
  | .hbm, ⟨37, _⟩ => ⟨S_, .f32⟩
  | .hbm, ⟨38, _⟩ => ⟨S2097152, .f32⟩
  | .hbm, ⟨39, _⟩ => ⟨S_, .f32⟩
  | .hbm, ⟨40, _⟩ => ⟨S1048576, .f32⟩
  | .hbm, ⟨41, _⟩ => ⟨S2097152x1, .i32⟩
  | .hbm, ⟨42, _⟩ => ⟨S1048576, .f32⟩
  | .hbm, ⟨43, _⟩ => ⟨S256x4096, .f32⟩
  | .hbm, ⟨44, _⟩ => ⟨S_, .i32⟩
  | .hbm, ⟨45, _⟩ => ⟨S1, .i32⟩
  | .hbm, ⟨46, _⟩ => ⟨S_, .f32⟩
  | .hbm, ⟨47, _⟩ => ⟨S256, .f32⟩
  | .hbm, ⟨48, _⟩ => ⟨S256x4096, .f32⟩
  | .hbm, ⟨49, _⟩ => ⟨S_, .f32⟩
  | .hbm, ⟨50, _⟩ => ⟨S256x4096, .f32⟩
  | .hbm, ⟨51, _⟩ => ⟨S256x4096, .i1⟩
  | .hbm, ⟨52, _⟩ => ⟨S256x4096, .f32⟩
  | .hbm, ⟨53, _⟩ => ⟨S256x4096x1, .f32⟩
  | .hbm, ⟨54, _⟩ => ⟨S256x4096, .f32⟩
  | .hbm, ⟨55, _⟩ => ⟨S256x4096, .i32⟩
  | .hbm, ⟨56, _⟩ => ⟨S_, .i32⟩
  | .hbm, ⟨57, _⟩ => ⟨S256x4096, .i32⟩
  | .hbm, ⟨58, _⟩ => ⟨S256x4096, .i1⟩
  | .hbm, ⟨59, _⟩ => ⟨S_, .i32⟩
  | .hbm, ⟨60, _⟩ => ⟨S256x4096, .i32⟩
  | .hbm, ⟨61, _⟩ => ⟨S256x4096, .i32⟩
  | .hbm, ⟨62, _⟩ => ⟨S256x4096, .i32⟩
  | .hbm, ⟨63, _⟩ => ⟨S256x4096x1, .i32⟩
  | .hbm, ⟨64, _⟩ => ⟨S256x4096x122, .f32⟩
  | .hbm, ⟨65, _⟩ => ⟨S256x4096x1, .f32⟩
  | .hbm, ⟨66, _⟩ => ⟨S256x4096x1, .f32⟩
  | .hbm, ⟨67, _⟩ => ⟨S256x4096x1, .f32⟩
  | .hbm, ⟨68, _⟩ => ⟨S256x4096x1, .f32⟩
  | .hbm, ⟨69, _⟩ => ⟨S256x4096x1, .f32⟩
  | .hbm, ⟨70, _⟩ => ⟨S256x4096x1, .f32⟩
  | .hbm, ⟨71, _⟩ => ⟨S256x4096x128, .f32⟩
  | _, _ => ⟨S256x4096x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_c_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  slices_S256x4096x5_S256x4096x1_0_0_2 : S256x4096x5.Slices ![0, 0, 2] S256x4096x1
  shapeCasts_S256x4096x1_S256x4096 : S256x4096x1.ShapeCasts S256x4096
  bcast_S_S256x4096 : S_.BroadcastsInDim S256x4096 (![] : Fin 0 → Fin S256x4096.rank)
  slices_S256x8192x2_S256x8192x1_0_0_1 : S256x8192x2.Slices ![0, 0, 1] S256x8192x1
  shapeCasts_S256x8192x1_S256x8192 : S256x8192x1.ShapeCasts S256x8192
  bcast_S256_S256x1_0 : S256.BroadcastsInDim S256x1 (![0] : Fin 1 → Fin S256x1.rank)
  bcast_S_S256x1 : S_.BroadcastsInDim S256x1 (![] : Fin 0 → Fin S256x1.rank)
  bcast_S256x1_S256x8192_0_1 : S256x1.BroadcastsInDim S256x8192 (![0, 1] : Fin 2 → Fin S256x8192.rank)
  shapeCasts_S256x8192_S2097152 : S256x8192.ShapeCasts S2097152
  bcast_S_S2097152 : S_.BroadcastsInDim S2097152 (![] : Fin 0 → Fin S2097152.rank)
  bcast_S_S1048576 : S_.BroadcastsInDim S1048576 (![] : Fin 0 → Fin S1048576.rank)
  bcast_S2097152_S2097152x1_0 : S2097152.BroadcastsInDim S2097152x1 (![0] : Fin 1 → Fin S2097152x1.rank)
  shapeCasts_S1048576_S256x4096 : S1048576.ShapeCasts S256x4096
  bcast_S_S1 : S_.BroadcastsInDim S1 (![] : Fin 0 → Fin S1.rank)
  bcast_S_S256 : S_.BroadcastsInDim S256 (![] : Fin 0 → Fin S256.rank)
  slices_S256x4096x5_S256x4096x1_0_0_4 : S256x4096x5.Slices ![0, 0, 4] S256x4096x1
  bcast_S256x4096_S256x4096x1_0_1 : S256x4096.BroadcastsInDim S256x4096x1 (![0, 1] : Fin 2 → Fin S256x4096x1.rank)
  slices_S256x4096x5_S256x4096x1_0_0_1 : S256x4096x5.Slices ![0, 0, 1] S256x4096x1
  slices_S256x4096x5_S256x4096x1_0_0_3 : S256x4096x5.Slices ![0, 0, 3] S256x4096x1
  concatenates_S256x4096x1_S256x4096x1_S256x4096x1_S256x4096x1_S256x4096x1_S256x4096x1_S256x4096x122_S256x4096x128_d2 : Shape.Concatenates [S256x4096x1, S256x4096x1, S256x4096x1, S256x4096x1, S256x4096x1, S256x4096x1, S256x4096x122] S256x4096x128 2
  scatter_S1048576_S2097152x1_S2097152_n_0_0_1_wf : ScatterDims.WF S1048576 S2097152x1 S2097152 [] [0] [0] 1
  scatter_S256x4096_S1_S256_0_1_1_0_wf : ScatterDims.WF S256x4096 S1 S256 [0] [1] [1] 0
  gather_S512x122_S256x4096x1_S256x4096x122_2_0_n_n_0_2_1122_wf : GatherDims.WF S512x122 S256x4096x1 S256x4096x122 [2] [0] [] [0] [] 2 ![1, 122]

variable [Facts₀]

def scatter_S1048576_S2097152x1_S2097152_n_0_0_1 : ScatterDims S1048576 S2097152x1 S2097152 where
  updateWindowDims := []
  insertedWindowDims := [0]
  scatterDimsToOperandDims := [0]
  indexVectorDim := 1
  wf := scatter_S1048576_S2097152x1_S2097152_n_0_0_1_wf
def scatter_S256x4096_S1_S256_0_1_1_0 : ScatterDims S256x4096 S1 S256 where
  updateWindowDims := [0]
  insertedWindowDims := [1]
  scatterDimsToOperandDims := [1]
  indexVectorDim := 0
  wf := scatter_S256x4096_S1_S256_0_1_1_0_wf
def gather_S512x122_S256x4096x1_S256x4096x122_2_0_n_n_0_2_1122 : GatherDims S512x122 S256x4096x1 S256x4096x122 where
  offsetDims := [2]
  collapsedSliceDims := [0]
  operandBatchingDims := []
  startIndicesBatchingDims := []
  startIndexMap := [0]
  indexVectorDim := 2
  sliceSizes := ![1, 122]
  wf := gather_S512x122_S256x4096x1_S256x4096x122_2_0_n_n_0_2_1122_wf

class Facts : Prop extends Facts₀ where

variable [Facts]
-- ==== Proof.KernelBitsRows.lean ====
import proofs.«103184_j28845000360091_2_alg».proof.Proof.Gen.Kernel.Frame
import proofs.«103184_j28845000360091_2_alg».proof.Proof.Gen.Kernel.Skeleton
import proofs.«103184_j28845000360091_2_alg».proof.Proof.Gen.Kernel.Loops
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip of the loop: the seven column stores of one batch row

Trip k of the body's loop reads row k of the entity block (a [1, 512, 5] array) and row k of the count block (a
[1, 512] array), and stores seven column groups into row k of the result block: columns 0, 1, 2, 3, 4, 5 and 6 … 127.
Nothing a trip stores depends on what the result block held before. -/

/-- Row r of the entity block, as the [1, 512, 5] array a trip loads. -/
def rowEnt (x0 : Vec F S32x512x5 .f32) (r : Fin 32) : Vec F S1x512x5 .f32 :=
  fun x => x0 (ix3 r (⟨(x 1).val, (x 1).isLt⟩ : Fin 512) (⟨(x 2).val, (x 2).isLt⟩ : Fin 5))

/-- Row r of the count block, as the [1, 512] array a trip loads. -/
def rowCnt (x1 : Vec F S32x512 .f32) (r : Fin 32) : Vec F S1x512 .f32 :=
  fun x => x1 (ix2 r (⟨(x 1).val, (x 1).isLt⟩ : Fin 512))

/-- The result block as one function of the entity block, the count block and the table: entry (r, n, j) is column
    group j's stored value of row r at entity n. -/
def blockOut (x0 : Vec F S32x512x5 .f32) (x1 : Vec F S32x512 .f32) (x2 : Vec F S512x122 .f32) : Vec F S32x512x128 .f32 :=
  fun y =>
    let r : Fin 32 := ⟨(y 0).val, (y 0).isLt⟩
    let n : Fin 512 := ⟨(y 1).val, (y 1).isLt⟩
    let z : Fin 1 := 0
    if (y 2).val = 0 then k0_pay2 (k0_pay17 (rowEnt x0 r)) (ix3 z n z)
    else if (y 2).val = 1 then k0_pay3 (k0_pay13 (rowEnt x0 r)) (ix3 z n z)
    else if (y 2).val = 2 then k0_pay4 (k0_pay14 (rowEnt x0 r)) (ix3 z n z)
    else if (y 2).val = 3 then k0_pay5 (k0_pay12 (rowEnt x0 r)) (ix3 z n z)
    else if (y 2).val = 4 then k0_pay6 (k0_pay10 (rowCnt x1 r)) (ix3 z n z)
    else if (y 2).val = 5 then k0_pay7 (k0_pay15 (rowCnt x1 r)) (ix3 z n z)
    else k0_pay8 (k0_pay16 (k0_pay1 x2) (rowEnt x0 r)) (ix3 z n (⟨(y 2).val - 6, by have := (y 2).isLt; show (y 2).val - 6 < 122; have h : (y 2).val < 128 := (y 2).isLt; omega⟩ : Fin 122))

/-- The seven stores of trip k, the last first. -/
def rowPieces (x0 : Vec F S32x512x5 .f32) (x1 : Vec F S32x512 .f32) (v0 : Vec F S512x122 .f32) (k : Fin k0_t1_loop.trips) :
    List (View.Piece (Elt F) S32x512x128 .f32) :=
  [⟨Rect.unit (k0_off9 k) S1x512x122.size (k0_off9_inb k), k0_pay8 (k0_pay16 (k0_pay1 v0) (View.ld x0 (Rect.unit (k0_off1 k) S1x512x5.size (k0_off1_inb k))))⟩,
   ⟨Rect.unit (k0_off8 k) S1x512x1.size (k0_off8_inb k), k0_pay7 (k0_pay15 (View.ld x1 (Rect.unit (k0_off2 k) S1x512.size (k0_off2_inb k))))⟩,
   ⟨Rect.unit (k0_off7 k) S1x512x1.size (k0_off7_inb k), k0_pay6 (k0_pay10 (View.ld x1 (Rect.unit (k0_off2 k) S1x512.size (k0_off2_inb k))))⟩,
   ⟨Rect.unit (k0_off6 k) S1x512x1.size (k0_off6_inb k), k0_pay5 (k0_pay12 (View.ld x0 (Rect.unit (k0_off1 k) S1x512x5.size (k0_off1_inb k))))⟩,
   ⟨Rect.unit (k0_off5 k) S1x512x1.size (k0_off5_inb k), k0_pay4 (k0_pay14 (View.ld x0 (Rect.unit (k0_off1 k) S1x512x5.size (k0_off1_inb k))))⟩,
   ⟨Rect.unit (k0_off4 k) S1x512x1.size (k0_off4_inb k), k0_pay3 (k0_pay13 (View.ld x0 (Rect.unit (k0_off1 k) S1x512x5.size (k0_off1_inb k))))⟩,
   ⟨Rect.unit (k0_off3 k) S1x512x1.size (k0_off3_inb k), k0_pay2 (k0_pay17 (View.ld x0 (Rect.unit (k0_off1 k) S1x512x5.size (k0_off1_inb k))))⟩]

/-- Trip k's list of stores is these seven, whatever the result block held. -/
theorem tripL_eq (𝒱 : Variants) (c : Dev nD) (bd : Option 𝒱.V) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole) (v0 : Vec F S512x122 .f32) (X_arg2 : BufTy.Contents (Elt F) arg2.view.ty) (X_arg3 : BufTy.Contents (Elt F) arg3.view.ty) (k : Fin k0_t1_loop.trips) (f : BufTy.Contents (Elt F) arg5.view.ty) :
    tripL_k0_t1 (F := F) 𝒱 c bd i arg2 harg2 arg3 harg3 arg4 harg4 arg5 harg5 v0 X_arg2 X_arg3 k f
      = rowPieces (arg2.view.read (Elt F) X_arg2) (arg3.view.read (Elt F) X_arg3) v0 k := by
  unfold tripL_k0_t1 trip_k0_t1
  dsimp only
  sl_unfold_run_names
  rfl

/-- The loop makes 32 trips. -/
theorem trips_eq : k0_t1_loop.trips = 32 := by decide +kernel

/-- The row of the entity block a trip loads. -/
theorem ld_rowEnt (x0 : Vec F S32x512x5 .f32) (k : Fin k0_t1_loop.trips) (hk : k.val < 32) :
    View.ld x0 (Rect.unit (k0_off1 k) S1x512x5.size (k0_off1_inb k)) = rowEnt x0 ⟨k.val, hk⟩ := by
  funext x
  show x0 ((Rect.unit (s := S32x512x5) (k0_off1 k) S1x512x5.size (k0_off1_inb k)).emb x) = x0 _
  refine congrArg x0 (funext fun a => Fin.ext ?_)
  rw [Rect.emb_apply]
  simp only [Rect.off_unit, Rect.stride_unit, k0_off1_eq k]
  match a with
  | ⟨0, h0⟩ =>
    have h : (x ⟨0, h0⟩).val < 1 := (x ⟨0, h0⟩).isLt
    show k.val + 1 * (x ⟨0, h0⟩).val = k.val
    omega
  | ⟨1, h1⟩ =>
    show 0 + 1 * (x ⟨1, h1⟩).val = (x ⟨1, h1⟩).val
    omega
  | ⟨2, h2⟩ =>
    show 0 + 1 * (x ⟨2, h2⟩).val = (x ⟨2, h2⟩).val
    omega

/-- The row of the count block a trip loads. -/
theorem ld_rowCnt (x1 : Vec F S32x512 .f32) (k : Fin k0_t1_loop.trips) (hk : k.val < 32) :
    View.ld x1 (Rect.unit (k0_off2 k) S1x512.size (k0_off2_inb k)) = rowCnt x1 ⟨k.val, hk⟩ := by
  funext x
  show x1 ((Rect.unit (s := S32x512) (k0_off2 k) S1x512.size (k0_off2_inb k)).emb x) = x1 _
  refine congrArg x1 (funext fun a => Fin.ext ?_)
  rw [Rect.emb_apply]
  simp only [Rect.off_unit, Rect.stride_unit, k0_off2_eq k]
  match a with
  | ⟨0, h0⟩ =>
    have h : (x ⟨0, h0⟩).val < 1 := (x ⟨0, h0⟩).isLt
    show k.val + 1 * (x ⟨0, h0⟩).val = k.val
    omega
  | ⟨1, h1⟩ =>
    show 0 + 1 * (x ⟨1, h1⟩).val = (x ⟨1, h1⟩).val
    omega

end Cert.Kernel.Body

end
-- ==== Proof.KernelBitsBlock.lean ====
import proofs.«103184_j28845000360091_2_alg».proof.Proof.Gen.Kernel.Frame
import proofs.«103184_j28845000360091_2_alg».proof.Proof.Gen.Kernel.Skeleton
import proofs.«103184_j28845000360091_2_alg».proof.Proof.Gen.Kernel.Loops
import Idealize.ShloMosaic.Lib.WritesUnit
import proofs.«103184_j28845000360091_2_alg».proof.Proof.KernelBitsRows
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the result block holds after the trips

One trip's seven stores, read back at an entry of the result block: an entry of the trip's row reads the stored value
of its column group, any other entry reads what was there. So after the trips of rows 0 … n − 1 the rows below n hold
the result block's function and the others are untouched; after all 32 trips the block is that function. -/

/-- Skip, from the front of a trip's list of stores, every store whose column group does not hold entry y's column
    (the column groups start at 6, 5, 4, 3, 2, 1, 0 and have 122, 1, 1, 1, 1, 1, 1 columns). -/
local macro "skip_other_columns" v:term:max f:term:max k:term:max y:term:max : tactic => `(tactic| repeat (first
  | rw [View.read_writes_cons_unit_of_not_mem $v $f (k0_off9_inb $k) _ _ $y (k0_off9_eq $k) (⟨2, by decide⟩ : Fin 3) (by show ($y 2).val < 6 ∨ 6 + 122 ≤ ($y 2).val; omega)]
  | rw [View.read_writes_cons_unit_of_not_mem $v $f (k0_off8_inb $k) _ _ $y (k0_off8_eq $k) (⟨2, by decide⟩ : Fin 3) (by show ($y 2).val < 5 ∨ 5 + 1 ≤ ($y 2).val; omega)]
  | rw [View.read_writes_cons_unit_of_not_mem $v $f (k0_off7_inb $k) _ _ $y (k0_off7_eq $k) (⟨2, by decide⟩ : Fin 3) (by show ($y 2).val < 4 ∨ 4 + 1 ≤ ($y 2).val; omega)]
  | rw [View.read_writes_cons_unit_of_not_mem $v $f (k0_off6_inb $k) _ _ $y (k0_off6_eq $k) (⟨2, by decide⟩ : Fin 3) (by show ($y 2).val < 3 ∨ 3 + 1 ≤ ($y 2).val; omega)]
  | rw [View.read_writes_cons_unit_of_not_mem $v $f (k0_off5_inb $k) _ _ $y (k0_off5_eq $k) (⟨2, by decide⟩ : Fin 3) (by show ($y 2).val < 2 ∨ 2 + 1 ≤ ($y 2).val; omega)]
  | rw [View.read_writes_cons_unit_of_not_mem $v $f (k0_off4_inb $k) _ _ $y (k0_off4_eq $k) (⟨2, by decide⟩ : Fin 3) (by show ($y 2).val < 1 ∨ 1 + 1 ≤ ($y 2).val; omega)]
  | rw [View.read_writes_cons_unit_of_not_mem $v $f (k0_off3_inb $k) _ _ $y (k0_off3_eq $k) (⟨2, by decide⟩ : Fin 3) (by show ($y 2).val < 0 ∨ 0 + 1 ≤ ($y 2).val; omega)]))

/-- The result block after trip k's stores over contents f, at an entry y: the block's function on row k, f elsewhere. -/
theorem read_rowPieces {κ : Kind} {sp : Space} (v : View sig κ sp S32x512x128 .f32) (f : v.ty.Contents (Elt F))
    (x0 : Vec F S32x512x5 .f32) (x1 : Vec F S32x512 .f32) (v0 : Vec F S512x122 .f32)
    (k : Fin k0_t1_loop.trips) (hk : k.val < 32) (y : S32x512x128.Idx) :
    v.read (Elt F) (v.writes (Elt F) f (rowPieces x0 x1 v0 k)) y
      = if (y 0).val = k.val then blockOut x0 x1 v0 y else v.read (Elt F) f y := by
  unfold rowPieces
  rw [ld_rowEnt x0 k hk, ld_rowCnt x1 k hk]
  by_cases h0 : (y 0).val = k.val
  · rw [if_pos h0]
    have hr : (⟨k.val, hk⟩ : Fin 32) = ⟨(y 0).val, (y 0).isLt⟩ := Fin.ext h0.symm
    have hc : (y 2).val < 128 := (y 2).isLt
    -- the entry's position inside the store that holds it: row 0 of 1, entity (y 1), column 0 of 1 (or column − 6 of 122)
    have hx : ∀ cc : ℕ, (y 2).val = cc → ∀ a : Fin 3, (y a).val = (![k.val, 0, cc] : Fin 3 → ℕ) a
        + ((ix3 (0 : Fin 1) (⟨(y 1).val, (y 1).isLt⟩ : Fin 512) (0 : Fin 1) : (⟨3, ![1, 512, 1]⟩ : Shape).Idx) a).val := by
      intro cc hcc a
      match a with
      | ⟨0, _⟩ => show (y 0).val = k.val + 0; omega
      | ⟨1, _⟩ => show (y 1).val = 0 + (y 1).val; omega
      | ⟨2, _⟩ => show (y 2).val = cc + 0; omega
    rcases (by omega : (y 2).val = 0 ∨ (y 2).val = 1 ∨ (y 2).val = 2 ∨ (y 2).val = 3 ∨ (y 2).val = 4 ∨ (y 2).val = 5 ∨ 6 ≤ (y 2).val) with h | h | h | h | h | h | h
    · skip_other_columns v f k y
      refine (View.read_writes_cons_unit_of_mem v f (k0_off3_inb k) _ _ y (ix3 (0 : Fin 1) (⟨(y 1).val, (y 1).isLt⟩ : Fin 512) (0 : Fin 1)) (k0_off3_eq k) (hx 0 h)).trans ?_
      unfold blockOut; dsimp only
      rw [if_pos h, hr]
    · skip_other_columns v f k y
      refine (View.read_writes_cons_unit_of_mem v f (k0_off4_inb k) _ _ y (ix3 (0 : Fin 1) (⟨(y 1).val, (y 1).isLt⟩ : Fin 512) (0 : Fin 1)) (k0_off4_eq k) (hx 1 h)).trans ?_
      unfold blockOut; dsimp only
      rw [if_neg (by omega), if_pos h, hr]
    · skip_other_columns v f k y
      refine (View.read_writes_cons_unit_of_mem v f (k0_off5_inb k) _ _ y (ix3 (0 : Fin 1) (⟨(y 1).val, (y 1).isLt⟩ : Fin 512) (0 : Fin 1)) (k0_off5_eq k) (hx 2 h)).trans ?_
      unfold blockOut; dsimp only
      rw [if_neg (by omega), if_neg (by omega), if_pos h, hr]
    · skip_other_columns v f k y
      refine (View.read_writes_cons_unit_of_mem v f (k0_off6_inb k) _ _ y (ix3 (0 : Fin 1) (⟨(y 1).val, (y 1).isLt⟩ : Fin 512) (0 : Fin 1)) (k0_off6_eq k) (hx 3 h)).trans ?_
      unfold blockOut; dsimp only
      rw [if_neg (by omega), if_neg (by omega), if_neg (by omega), if_pos h, hr]
    · skip_other_columns v f k y
      refine (View.read_writes_cons_unit_of_mem v f (k0_off7_inb k) _ _ y (ix3 (0 : Fin 1) (⟨(y 1).val, (y 1).isLt⟩ : Fin 512) (0 : Fin 1)) (k0_off7_eq k) (hx 4 h)).trans ?_
      unfold blockOut; dsimp only
      rw [if_neg (by omega), if_neg (by omega), if_neg (by omega), if_neg (by omega), if_pos h, hr]
    · skip_other_columns v f k y
      refine (View.read_writes_cons_unit_of_mem v f (k0_off8_inb k) _ _ y (ix3 (0 : Fin 1) (⟨(y 1).val, (y 1).isLt⟩ : Fin 512) (0 : Fin 1)) (k0_off8_eq k) (hx 5 h)).trans ?_
      unfold blockOut; dsimp only
      rw [if_neg (by omega), if_neg (by omega), if_neg (by omega), if_neg (by omega), if_neg (by omega), if_pos h, hr]
    · refine (View.read_writes_cons_unit_of_mem v f (k0_off9_inb k) _ _ y
        (ix3 (0 : Fin 1) (⟨(y 1).val, (y 1).isLt⟩ : Fin 512) (⟨(y 2).val - 6, by show (y 2).val - 6 < 122; omega⟩ : Fin 122)) (k0_off9_eq k)
        (fun a => match a with
          | ⟨0, _⟩ => by show (y 0).val = k.val + 0; omega
          | ⟨1, _⟩ => by show (y 1).val = 0 + (y 1).val; omega
          | ⟨2, _⟩ => by show (y 2).val = 6 + ((y 2).val - 6); omega)).trans ?_
      unfold blockOut; dsimp only
      rw [if_neg (by omega), if_neg (by omega), if_neg (by omega), if_neg (by omega), if_neg (by omega), if_neg (by omega), hr]
  · rw [if_neg h0]
    -- every store of the trip is in row k, which is not y's row
    rw [View.read_writes_cons_unit_of_not_mem v f (k0_off9_inb k) _ _ y (k0_off9_eq k) (⟨0, by decide⟩ : Fin 3) (by show (y 0).val < k.val ∨ k.val + 1 ≤ (y 0).val; omega),
      View.read_writes_cons_unit_of_not_mem v f (k0_off8_inb k) _ _ y (k0_off8_eq k) (⟨0, by decide⟩ : Fin 3) (by show (y 0).val < k.val ∨ k.val + 1 ≤ (y 0).val; omega),
      View.read_writes_cons_unit_of_not_mem v f (k0_off7_inb k) _ _ y (k0_off7_eq k) (⟨0, by decide⟩ : Fin 3) (by show (y 0).val < k.val ∨ k.val + 1 ≤ (y 0).val; omega),
      View.read_writes_cons_unit_of_not_mem v f (k0_off6_inb k) _ _ y (k0_off6_eq k) (⟨0, by decide⟩ : Fin 3) (by show (y 0).val < k.val ∨ k.val + 1 ≤ (y 0).val; omega),
      View.read_writes_cons_unit_of_not_mem v f (k0_off5_inb k) _ _ y (k0_off5_eq k) (⟨0, by decide⟩ : Fin 3) (by show (y 0).val < k.val ∨ k.val + 1 ≤ (y 0).val; omega),
      View.read_writes_cons_unit_of_not_mem v f (k0_off4_inb k) _ _ y (k0_off4_eq k) (⟨0, by decide⟩ : Fin 3) (by show (y 0).val < k.val ∨ k.val + 1 ≤ (y 0).val; omega),
      View.read_writes_cons_unit_of_not_mem v f (k0_off3_inb k) _ _ y (k0_off3_eq k) (⟨0, by decide⟩ : Fin 3) (by show (y 0).val < k.val ∨ k.val + 1 ≤ (y 0).val; omega)]
    rfl

/-- After the trips of rows 0 … n − 1 over contents d: the rows below n hold the block's function, the rest d. -/
theorem read_pb (𝒱 : Variants) (c : Dev nD) (bd : Option 𝒱.V) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole) (v0 : Vec F S512x122 .f32) (X_arg2 : BufTy.Contents (Elt F) arg2.view.ty) (X_arg3 : BufTy.Contents (Elt F) arg3.view.ty) (d : BufTy.Contents (Elt F) arg5.view.ty) :
    ∀ n : ℕ, n ≤ k0_t1_loop.trips → ∀ y : S32x512x128.Idx,
      arg5.view.read (Elt F) (arg5.view.writes (Elt F) d (pb_k0_t1 (F := F) 𝒱 c bd i arg2 harg2 arg3 harg3 arg4 harg4 arg5 harg5 v0 X_arg2 X_arg3 d n)) y
        = if (y 0).val < n then blockOut (arg2.view.read (Elt F) X_arg2) (arg3.view.read (Elt F) X_arg3) v0 y
          else arg5.view.read (Elt F) d y := by
  intro n
  induction n with
  | zero =>
    intro _ y
    rw [pb_k0_t1.eq_1, View.writes_nil, if_neg (Nat.not_lt_zero _)]
  | succ n ih =>
    intro hn y
    have hlt : n < k0_t1_loop.trips := hn
    have h32 : n < 32 := by have := trips_eq; omega
    have hs := pb_k0_t1_succ (F := F) 𝒱 c bd i arg2 harg2 arg3 harg3 arg4 harg4 arg5 harg5 v0 X_arg2 X_arg3 d ⟨n, hlt⟩
    rw [show ((⟨n, hlt⟩ : Fin k0_t1_loop.trips).val + 1) = n + 1 from rfl, show ((⟨n, hlt⟩ : Fin k0_t1_loop.trips).val) = n from rfl] at hs
    rw [hs, tripL_eq, View.writes_append, read_rowPieces arg5.view _ _ _ _ ⟨n, hlt⟩ h32 y, ih (Nat.le_of_lt hlt) y]
    show (if (y 0).val = n then _ else _) = _
    by_cases h1 : (y 0).val = n
    · rw [if_pos h1, if_pos (by omega)]
    · rw [if_neg h1]
      by_cases h2 : (y 0).val < n
      · rw [if_pos h2, if_pos (by omega)]
      · rw [if_neg h2, if_neg (by omega)]

end Cert.Kernel.Body

end
-- ==== Proof.KernelBitsBody.lean ====
import proofs.«103184_j28845000360091_2_alg».proof.Proof.Gen.Kernel.Frame
import proofs.«103184_j28845000360091_2_alg».proof.Proof.Gen.Kernel.Skeleton
import proofs.«103184_j28845000360091_2_alg».proof.Proof.Gen.Kernel.Loops
import Idealize.ShloMosaic.Lib.WritesUnit
import Idealize.ShloMosaic.Lib.Pipeline.Value
import proofs.«103184_j28845000360091_2_alg».proof.Proof.KernelBitsBlock
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs

On whole staging memrefs — the entity block, the count block and the table at their contents, the result block at
anything — the body runs and hands the inputs back as they were and the result block at its function of the three
inputs: the 32 trips leave every row at the block's function, whatever the block held before. -/

theorem zeros2 : (![0, 0] : Fin 2 → Nat) = fun _ => 0 := funext fun a => by fin_cases a <;> rfl

set_option maxHeartbeats 1000000 in
theorem kernelRun (c : Dev nD) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole)
    (x0 : Vec F S32x512x5 .f32) (x1 : Vec F S32x512 .f32) (x2 : Vec F S512x122 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ owns (c : Thread nD τ) arg5 fullShare (blockOut x0 x1 x2)) -∗ K ⟨⟩))
          ⊢ wp frame (wpE (defs₀ (F := F)) Variants.none c none) E (cc0__kernel i arg2 harg2 arg3 harg3 arg4 harg4 arg5 harg5) K := by
    intro E K
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; swap; · iexact H3
    ipureintro
    -- the table the trips use is the table block; after all the trips every row holds the block's function
    have hv0 : View.readAt (Elt F) arg4.view (Rect.unit ![0, 0] S512x122.size inb_S512x122_S512x122_0_0).toLoadRect (harg4.unread x2) = x2 := by
      rw [View.readAt_eq_ld, hf2]
      exact View.ld_unit_zero (S := S512x122) zeros2 _ x2
    rw [hv0]
    funext y
    refine (read_pb Variants.none c none i arg2 harg2 arg3 harg3 arg4 harg4 arg5 harg5 x2 (harg2.unread x0) (harg3.unread x1) f3
      k0_t1_loop.trips (Nat.le_refl _) y).trans ?_
    have hy : (y 0).val < k0_t1_loop.trips := by rw [trips_eq]; exact (y 0).isLt
    rw [if_pos hy, hf0, hf1]

/-! ## The pipeline's proof data -/

/-- The proof data of the one pipeline on core c: the arrays as the region finds them; after the body at point t each
    input's buffer at its block and the result's at its function of the three input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelRows.lean ====
import proofs.«103184_j28845000360091_2_alg».proof.Proof.Gen.KernelIdeal.Frame
import proofs.«103184_j28845000360091_2_alg».proof.Proof.Gen.KernelIdeal.Skeleton
import proofs.«103184_j28845000360091_2_alg».proof.Proof.Gen.KernelIdeal.Loops
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip of the loop: the seven column stores of one batch row

Trip k of the body's loop reads row k of the entity block (a [1, 512, 5] array) and row k of the count block (a
[1, 512] array), and stores seven column groups into row k of the result block: columns 0, 1, 2, 3, 4, 5 and 6 … 127.
Nothing a trip stores depends on what the result block held before. -/

/-- Row r of the entity block, as the [1, 512, 5] array a trip loads. -/
def rowEnt (x0 : Vec F S32x512x5 .f32) (r : Fin 32) : Vec F S1x512x5 .f32 :=
  fun x => x0 (ix3 r (⟨(x 1).val, (x 1).isLt⟩ : Fin 512) (⟨(x 2).val, (x 2).isLt⟩ : Fin 5))

/-- Row r of the count block, as the [1, 512] array a trip loads. -/
def rowCnt (x1 : Vec F S32x512 .f32) (r : Fin 32) : Vec F S1x512 .f32 :=
  fun x => x1 (ix2 r (⟨(x 1).val, (x 1).isLt⟩ : Fin 512))

/-- The result block as one function of the entity block, the count block and the table: entry (r, n, j) is column
    group j's stored value of row r at entity n. -/
def blockOut (x0 : Vec F S32x512x5 .f32) (x1 : Vec F S32x512 .f32) (x2 : Vec F S512x122 .f32) : Vec F S32x512x128 .f32 :=
  fun y =>
    let r : Fin 32 := ⟨(y 0).val, (y 0).isLt⟩
    let n : Fin 512 := ⟨(y 1).val, (y 1).isLt⟩
    let z : Fin 1 := 0
    if (y 2).val = 0 then k0_pay2 (k0_pay17 (rowEnt x0 r)) (ix3 z n z)
    else if (y 2).val = 1 then k0_pay3 (k0_pay13 (rowEnt x0 r)) (ix3 z n z)
    else if (y 2).val = 2 then k0_pay4 (k0_pay14 (rowEnt x0 r)) (ix3 z n z)
    else if (y 2).val = 3 then k0_pay5 (k0_pay12 (rowEnt x0 r)) (ix3 z n z)
    else if (y 2).val = 4 then k0_pay6 (k0_pay10 (rowCnt x1 r)) (ix3 z n z)
    else if (y 2).val = 5 then k0_pay7 (k0_pay15 (rowCnt x1 r)) (ix3 z n z)
    else k0_pay8 (k0_pay16 (k0_pay1 x2) (rowEnt x0 r)) (ix3 z n (⟨(y 2).val - 6, by have := (y 2).isLt; show (y 2).val - 6 < 122; have h : (y 2).val < 128 := (y 2).isLt; omega⟩ : Fin 122))

/-- The seven stores of trip k, the last first. -/
def rowPieces (x0 : Vec F S32x512x5 .f32) (x1 : Vec F S32x512 .f32) (v0 : Vec F S512x122 .f32) (k : Fin k0_t1_loop.trips) :
    List (View.Piece (Elt F) S32x512x128 .f32) :=
  [⟨Rect.unit (k0_off9 k) S1x512x122.size (k0_off9_inb k), k0_pay8 (k0_pay16 (k0_pay1 v0) (View.ld x0 (Rect.unit (k0_off1 k) S1x512x5.size (k0_off1_inb k))))⟩,
   ⟨Rect.unit (k0_off8 k) S1x512x1.size (k0_off8_inb k), k0_pay7 (k0_pay15 (View.ld x1 (Rect.unit (k0_off2 k) S1x512.size (k0_off2_inb k))))⟩,
   ⟨Rect.unit (k0_off7 k) S1x512x1.size (k0_off7_inb k), k0_pay6 (k0_pay10 (View.ld x1 (Rect.unit (k0_off2 k) S1x512.size (k0_off2_inb k))))⟩,
   ⟨Rect.unit (k0_off6 k) S1x512x1.size (k0_off6_inb k), k0_pay5 (k0_pay12 (View.ld x0 (Rect.unit (k0_off1 k) S1x512x5.size (k0_off1_inb k))))⟩,
   ⟨Rect.unit (k0_off5 k) S1x512x1.size (k0_off5_inb k), k0_pay4 (k0_pay14 (View.ld x0 (Rect.unit (k0_off1 k) S1x512x5.size (k0_off1_inb k))))⟩,
   ⟨Rect.unit (k0_off4 k) S1x512x1.size (k0_off4_inb k), k0_pay3 (k0_pay13 (View.ld x0 (Rect.unit (k0_off1 k) S1x512x5.size (k0_off1_inb k))))⟩,
   ⟨Rect.unit (k0_off3 k) S1x512x1.size (k0_off3_inb k), k0_pay2 (k0_pay17 (View.ld x0 (Rect.unit (k0_off1 k) S1x512x5.size (k0_off1_inb k))))⟩]

/-- Trip k's list of stores is these seven, whatever the result block held. -/
theorem tripL_eq (𝒱 : Variants) (c : Dev nD) (bd : Option 𝒱.V) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole) (v0 : Vec F S512x122 .f32) (X_arg2 : BufTy.Contents (Elt F) arg2.view.ty) (X_arg3 : BufTy.Contents (Elt F) arg3.view.ty) (k : Fin k0_t1_loop.trips) (f : BufTy.Contents (Elt F) arg5.view.ty) :
    tripL_k0_t1 (F := F) 𝒱 c bd i arg2 harg2 arg3 harg3 arg4 harg4 arg5 harg5 v0 X_arg2 X_arg3 k f
      = rowPieces (arg2.view.read (Elt F) X_arg2) (arg3.view.read (Elt F) X_arg3) v0 k := by
  unfold tripL_k0_t1 trip_k0_t1
  dsimp only
  sl_unfold_run_names
  rfl

/-- The loop makes 32 trips. -/
theorem trips_eq : k0_t1_loop.trips = 32 := by decide +kernel

/-- The row of the entity block a trip loads. -/
theorem ld_rowEnt (x0 : Vec F S32x512x5 .f32) (k : Fin k0_t1_loop.trips) (hk : k.val < 32) :
    View.ld x0 (Rect.unit (k0_off1 k) S1x512x5.size (k0_off1_inb k)) = rowEnt x0 ⟨k.val, hk⟩ := by
  funext x
  show x0 ((Rect.unit (s := S32x512x5) (k0_off1 k) S1x512x5.size (k0_off1_inb k)).emb x) = x0 _
  refine congrArg x0 (funext fun a => Fin.ext ?_)
  rw [Rect.emb_apply]
  simp only [Rect.off_unit, Rect.stride_unit, k0_off1_eq k]
  match a with
  | ⟨0, h0⟩ =>
    have h : (x ⟨0, h0⟩).val < 1 := (x ⟨0, h0⟩).isLt
    show k.val + 1 * (x ⟨0, h0⟩).val = k.val
    omega
  | ⟨1, h1⟩ =>
    show 0 + 1 * (x ⟨1, h1⟩).val = (x ⟨1, h1⟩).val
    omega
  | ⟨2, h2⟩ =>
    show 0 + 1 * (x ⟨2, h2⟩).val = (x ⟨2, h2⟩).val
    omega

/-- The row of the count block a trip loads. -/
theorem ld_rowCnt (x1 : Vec F S32x512 .f32) (k : Fin k0_t1_loop.trips) (hk : k.val < 32) :
    View.ld x1 (Rect.unit (k0_off2 k) S1x512.size (k0_off2_inb k)) = rowCnt x1 ⟨k.val, hk⟩ := by
  funext x
  show x1 ((Rect.unit (s := S32x512) (k0_off2 k) S1x512.size (k0_off2_inb k)).emb x) = x1 _
  refine congrArg x1 (funext fun a => Fin.ext ?_)
  rw [Rect.emb_apply]
  simp only [Rect.off_unit, Rect.stride_unit, k0_off2_eq k]
  match a with
  | ⟨0, h0⟩ =>
    have h : (x ⟨0, h0⟩).val < 1 := (x ⟨0, h0⟩).isLt
    show k.val + 1 * (x ⟨0, h0⟩).val = k.val
    omega
  | ⟨1, h1⟩ =>
    show 0 + 1 * (x ⟨1, h1⟩).val = (x ⟨1, h1⟩).val
    omega

end Cert.KernelIdeal.Body

end
-- ==== Proof.KernelBlock.lean ====
import proofs.«103184_j28845000360091_2_alg».proof.Proof.Gen.KernelIdeal.Frame
import proofs.«103184_j28845000360091_2_alg».proof.Proof.Gen.KernelIdeal.Skeleton
import proofs.«103184_j28845000360091_2_alg».proof.Proof.Gen.KernelIdeal.Loops
import Idealize.ShloMosaic.Lib.WritesUnit
import proofs.«103184_j28845000360091_2_alg».proof.Proof.KernelRows
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the result block holds after the trips

One trip's seven stores, read back at an entry of the result block: an entry of the trip's row reads the stored value
of its column group, any other entry reads what was there. So after the trips of rows 0 … n − 1 the rows below n hold
the result block's function and the others are untouched; after all 32 trips the block is that function. -/

/-- Skip, from the front of a trip's list of stores, every store whose column group does not hold entry y's column
    (the column groups start at 6, 5, 4, 3, 2, 1, 0 and have 122, 1, 1, 1, 1, 1, 1 columns). -/
local macro "skip_other_columns" v:term:max f:term:max k:term:max y:term:max : tactic => `(tactic| repeat (first
  | rw [View.read_writes_cons_unit_of_not_mem $v $f (k0_off9_inb $k) _ _ $y (k0_off9_eq $k) (⟨2, by decide⟩ : Fin 3) (by show ($y 2).val < 6 ∨ 6 + 122 ≤ ($y 2).val; omega)]
  | rw [View.read_writes_cons_unit_of_not_mem $v $f (k0_off8_inb $k) _ _ $y (k0_off8_eq $k) (⟨2, by decide⟩ : Fin 3) (by show ($y 2).val < 5 ∨ 5 + 1 ≤ ($y 2).val; omega)]
  | rw [View.read_writes_cons_unit_of_not_mem $v $f (k0_off7_inb $k) _ _ $y (k0_off7_eq $k) (⟨2, by decide⟩ : Fin 3) (by show ($y 2).val < 4 ∨ 4 + 1 ≤ ($y 2).val; omega)]
  | rw [View.read_writes_cons_unit_of_not_mem $v $f (k0_off6_inb $k) _ _ $y (k0_off6_eq $k) (⟨2, by decide⟩ : Fin 3) (by show ($y 2).val < 3 ∨ 3 + 1 ≤ ($y 2).val; omega)]
  | rw [View.read_writes_cons_unit_of_not_mem $v $f (k0_off5_inb $k) _ _ $y (k0_off5_eq $k) (⟨2, by decide⟩ : Fin 3) (by show ($y 2).val < 2 ∨ 2 + 1 ≤ ($y 2).val; omega)]
  | rw [View.read_writes_cons_unit_of_not_mem $v $f (k0_off4_inb $k) _ _ $y (k0_off4_eq $k) (⟨2, by decide⟩ : Fin 3) (by show ($y 2).val < 1 ∨ 1 + 1 ≤ ($y 2).val; omega)]
  | rw [View.read_writes_cons_unit_of_not_mem $v $f (k0_off3_inb $k) _ _ $y (k0_off3_eq $k) (⟨2, by decide⟩ : Fin 3) (by show ($y 2).val < 0 ∨ 0 + 1 ≤ ($y 2).val; omega)]))

/-- The result block after trip k's stores over contents f, at an entry y: the block's function on row k, f elsewhere. -/
theorem read_rowPieces {κ : Kind} {sp : Space} (v : View sig κ sp S32x512x128 .f32) (f : v.ty.Contents (Elt F))
    (x0 : Vec F S32x512x5 .f32) (x1 : Vec F S32x512 .f32) (v0 : Vec F S512x122 .f32)
    (k : Fin k0_t1_loop.trips) (hk : k.val < 32) (y : S32x512x128.Idx) :
    v.read (Elt F) (v.writes (Elt F) f (rowPieces x0 x1 v0 k)) y
      = if (y 0).val = k.val then blockOut x0 x1 v0 y else v.read (Elt F) f y := by
  unfold rowPieces
  rw [ld_rowEnt x0 k hk, ld_rowCnt x1 k hk]
  by_cases h0 : (y 0).val = k.val
  · rw [if_pos h0]
    have hr : (⟨k.val, hk⟩ : Fin 32) = ⟨(y 0).val, (y 0).isLt⟩ := Fin.ext h0.symm
    have hc : (y 2).val < 128 := (y 2).isLt
    -- the entry's position inside the store that holds it: row 0 of 1, entity (y 1), column 0 of 1 (or column − 6 of 122)
    have hx : ∀ cc : ℕ, (y 2).val = cc → ∀ a : Fin 3, (y a).val = (![k.val, 0, cc] : Fin 3 → ℕ) a
        + ((ix3 (0 : Fin 1) (⟨(y 1).val, (y 1).isLt⟩ : Fin 512) (0 : Fin 1) : (⟨3, ![1, 512, 1]⟩ : Shape).Idx) a).val := by
      intro cc hcc a
      match a with
      | ⟨0, _⟩ => show (y 0).val = k.val + 0; omega
      | ⟨1, _⟩ => show (y 1).val = 0 + (y 1).val; omega
      | ⟨2, _⟩ => show (y 2).val = cc + 0; omega
    rcases (by omega : (y 2).val = 0 ∨ (y 2).val = 1 ∨ (y 2).val = 2 ∨ (y 2).val = 3 ∨ (y 2).val = 4 ∨ (y 2).val = 5 ∨ 6 ≤ (y 2).val) with h | h | h | h | h | h | h
    · skip_other_columns v f k y
      refine (View.read_writes_cons_unit_of_mem v f (k0_off3_inb k) _ _ y (ix3 (0 : Fin 1) (⟨(y 1).val, (y 1).isLt⟩ : Fin 512) (0 : Fin 1)) (k0_off3_eq k) (hx 0 h)).trans ?_
      unfold blockOut; dsimp only
      rw [if_pos h, hr]
    · skip_other_columns v f k y
      refine (View.read_writes_cons_unit_of_mem v f (k0_off4_inb k) _ _ y (ix3 (0 : Fin 1) (⟨(y 1).val, (y 1).isLt⟩ : Fin 512) (0 : Fin 1)) (k0_off4_eq k) (hx 1 h)).trans ?_
      unfold blockOut; dsimp only
      rw [if_neg (by omega), if_pos h, hr]
    · skip_other_columns v f k y
      refine (View.read_writes_cons_unit_of_mem v f (k0_off5_inb k) _ _ y (ix3 (0 : Fin 1) (⟨(y 1).val, (y 1).isLt⟩ : Fin 512) (0 : Fin 1)) (k0_off5_eq k) (hx 2 h)).trans ?_
      unfold blockOut; dsimp only
      rw [if_neg (by omega), if_neg (by omega), if_pos h, hr]
    · skip_other_columns v f k y
      refine (View.read_writes_cons_unit_of_mem v f (k0_off6_inb k) _ _ y (ix3 (0 : Fin 1) (⟨(y 1).val, (y 1).isLt⟩ : Fin 512) (0 : Fin 1)) (k0_off6_eq k) (hx 3 h)).trans ?_
      unfold blockOut; dsimp only
      rw [if_neg (by omega), if_neg (by omega), if_neg (by omega), if_pos h, hr]
    · skip_other_columns v f k y
      refine (View.read_writes_cons_unit_of_mem v f (k0_off7_inb k) _ _ y (ix3 (0 : Fin 1) (⟨(y 1).val, (y 1).isLt⟩ : Fin 512) (0 : Fin 1)) (k0_off7_eq k) (hx 4 h)).trans ?_
      unfold blockOut; dsimp only
      rw [if_neg (by omega), if_neg (by omega), if_neg (by omega), if_neg (by omega), if_pos h, hr]
    · skip_other_columns v f k y
      refine (View.read_writes_cons_unit_of_mem v f (k0_off8_inb k) _ _ y (ix3 (0 : Fin 1) (⟨(y 1).val, (y 1).isLt⟩ : Fin 512) (0 : Fin 1)) (k0_off8_eq k) (hx 5 h)).trans ?_
      unfold blockOut; dsimp only
      rw [if_neg (by omega), if_neg (by omega), if_neg (by omega), if_neg (by omega), if_neg (by omega), if_pos h, hr]
    · refine (View.read_writes_cons_unit_of_mem v f (k0_off9_inb k) _ _ y
        (ix3 (0 : Fin 1) (⟨(y 1).val, (y 1).isLt⟩ : Fin 512) (⟨(y 2).val - 6, by show (y 2).val - 6 < 122; omega⟩ : Fin 122)) (k0_off9_eq k)
        (fun a => match a with
          | ⟨0, _⟩ => by show (y 0).val = k.val + 0; omega
          | ⟨1, _⟩ => by show (y 1).val = 0 + (y 1).val; omega
          | ⟨2, _⟩ => by show (y 2).val = 6 + ((y 2).val - 6); omega)).trans ?_
      unfold blockOut; dsimp only
      rw [if_neg (by omega), if_neg (by omega), if_neg (by omega), if_neg (by omega), if_neg (by omega), if_neg (by omega), hr]
  · rw [if_neg h0]
    -- every store of the trip is in row k, which is not y's row
    rw [View.read_writes_cons_unit_of_not_mem v f (k0_off9_inb k) _ _ y (k0_off9_eq k) (⟨0, by decide⟩ : Fin 3) (by show (y 0).val < k.val ∨ k.val + 1 ≤ (y 0).val; omega),
      View.read_writes_cons_unit_of_not_mem v f (k0_off8_inb k) _ _ y (k0_off8_eq k) (⟨0, by decide⟩ : Fin 3) (by show (y 0).val < k.val ∨ k.val + 1 ≤ (y 0).val; omega),
      View.read_writes_cons_unit_of_not_mem v f (k0_off7_inb k) _ _ y (k0_off7_eq k) (⟨0, by decide⟩ : Fin 3) (by show (y 0).val < k.val ∨ k.val + 1 ≤ (y 0).val; omega),
      View.read_writes_cons_unit_of_not_mem v f (k0_off6_inb k) _ _ y (k0_off6_eq k) (⟨0, by decide⟩ : Fin 3) (by show (y 0).val < k.val ∨ k.val + 1 ≤ (y 0).val; omega),
      View.read_writes_cons_unit_of_not_mem v f (k0_off5_inb k) _ _ y (k0_off5_eq k) (⟨0, by decide⟩ : Fin 3) (by show (y 0).val < k.val ∨ k.val + 1 ≤ (y 0).val; omega),
      View.read_writes_cons_unit_of_not_mem v f (k0_off4_inb k) _ _ y (k0_off4_eq k) (⟨0, by decide⟩ : Fin 3) (by show (y 0).val < k.val ∨ k.val + 1 ≤ (y 0).val; omega),
      View.read_writes_cons_unit_of_not_mem v f (k0_off3_inb k) _ _ y (k0_off3_eq k) (⟨0, by decide⟩ : Fin 3) (by show (y 0).val < k.val ∨ k.val + 1 ≤ (y 0).val; omega)]
    rfl

/-- After the trips of rows 0 … n − 1 over contents d: the rows below n hold the block's function, the rest d. -/
theorem read_pb (𝒱 : Variants) (c : Dev nD) (bd : Option 𝒱.V) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole) (v0 : Vec F S512x122 .f32) (X_arg2 : BufTy.Contents (Elt F) arg2.view.ty) (X_arg3 : BufTy.Contents (Elt F) arg3.view.ty) (d : BufTy.Contents (Elt F) arg5.view.ty) :
    ∀ n : ℕ, n ≤ k0_t1_loop.trips → ∀ y : S32x512x128.Idx,
      arg5.view.read (Elt F) (arg5.view.writes (Elt F) d (pb_k0_t1 (F := F) 𝒱 c bd i arg2 harg2 arg3 harg3 arg4 harg4 arg5 harg5 v0 X_arg2 X_arg3 d n)) y
        = if (y 0).val < n then blockOut (arg2.view.read (Elt F) X_arg2) (arg3.view.read (Elt F) X_arg3) v0 y
          else arg5.view.read (Elt F) d y := by
  intro n
  induction n with
  | zero =>
    intro _ y
    rw [pb_k0_t1.eq_1, View.writes_nil, if_neg (Nat.not_lt_zero _)]
  | succ n ih =>
    intro hn y
    have hlt : n < k0_t1_loop.trips := hn
    have h32 : n < 32 := by have := trips_eq; omega
    have hs := pb_k0_t1_succ (F := F) 𝒱 c bd i arg2 harg2 arg3 harg3 arg4 harg4 arg5 harg5 v0 X_arg2 X_arg3 d ⟨n, hlt⟩
    rw [show ((⟨n, hlt⟩ : Fin k0_t1_loop.trips).val + 1) = n + 1 from rfl, show ((⟨n, hlt⟩ : Fin k0_t1_loop.trips).val) = n from rfl] at hs
    rw [hs, tripL_eq, View.writes_append, read_rowPieces arg5.view _ _ _ _ ⟨n, hlt⟩ h32 y, ih (Nat.le_of_lt hlt) y]
    show (if (y 0).val = n then _ else _) = _
    by_cases h1 : (y 0).val = n
    · rw [if_pos h1, if_pos (by omega)]
    · rw [if_neg h1]
      by_cases h2 : (y 0).val < n
      · rw [if_pos h2, if_pos (by omega)]
      · rw [if_neg h2, if_neg (by omega)]

end Cert.KernelIdeal.Body

end
-- ==== Proof.KernelBody.lean ====
import proofs.«103184_j28845000360091_2_alg».proof.Proof.Gen.KernelIdeal.Frame
import proofs.«103184_j28845000360091_2_alg».proof.Proof.Gen.KernelIdeal.Skeleton
import proofs.«103184_j28845000360091_2_alg».proof.Proof.Gen.KernelIdeal.Loops
import Idealize.ShloMosaic.Lib.WritesUnit
import Idealize.ShloMosaic.Lib.Pipeline.Value
import proofs.«103184_j28845000360091_2_alg».proof.Proof.KernelBlock
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs

On whole staging memrefs — the entity block, the count block and the table at their contents, the result block at
anything — the body runs and hands the inputs back as they were and the result block at its function of the three
inputs: the 32 trips leave every row at the block's function, whatever the block held before. -/

theorem zeros2 : (![0, 0] : Fin 2 → Nat) = fun _ => 0 := funext fun a => by fin_cases a <;> rfl

set_option maxHeartbeats 1000000 in
theorem kernelRun (c : Dev nD) (i : grid0.Coords) (arg2 : Memref sig .tc .vmem S32x512x5 .f32) (harg2 : arg2.IsWhole) (arg3 : Memref sig .tc .vmem S32x512 .f32) (harg3 : arg3.IsWhole) (arg4 : Memref sig .tc .vmem S512x122 .f32) (harg4 : arg4.IsWhole) (arg5 : Memref sig .tc .vmem S32x512x128 .f32) (harg5 : arg5.IsWhole)
    (x0 : Vec F S32x512x5 .f32) (x1 : Vec F S32x512 .f32) (x2 : Vec F S512x122 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ owns (c : Thread nD τ) arg5 fullShare (blockOut x0 x1 x2)) -∗ K ⟨⟩))
          ⊢ wp frame (wpE (defs₀ (F := F)) Variants.none c none) E (cc0__kernel i arg2 harg2 arg3 harg3 arg4 harg4 arg5 harg5) K := by
    intro E K
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; swap; · iexact H3
    ipureintro
    -- the table the trips use is the table block; after all the trips every row holds the block's function
    have hv0 : View.readAt (Elt F) arg4.view (Rect.unit ![0, 0] S512x122.size inb_S512x122_S512x122_0_0).toLoadRect (harg4.unread x2) = x2 := by
      rw [View.readAt_eq_ld, hf2]
      exact View.ld_unit_zero (S := S512x122) zeros2 _ x2
    rw [hv0]
    funext y
    refine (read_pb Variants.none c none i arg2 harg2 arg3 harg3 arg4 harg4 arg5 harg5 x2 (harg2.unread x0) (harg3.unread x1) f3
      k0_t1_loop.trips (Nat.le_refl _) y).trans ?_
    have hy : (y 0).val < k0_t1_loop.trips := by rw [trips_eq]; exact (y 0).isLt
    rw [if_pos hy, hf0, hf1]

/-! ## The pipeline's proof data -/

/-- The proof data of the one pipeline on core c: the arrays as the region finds them; after the body at point t each
    input's buffer at its block and the result's at its function of the three input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  What one row of the result is, as a function of the three arrays the computation reads.

  For batch b and entity n the 128 numbers of the result's row are: column 1 of the entity; the entity's azimuth az
  (column 2) as |az| / 180; the azimuth as (|90 - az| if az ≥ -90, else 90 + |az + 180|) / 180; column 3 of the entity;
  the number of facts that name the entity; 1 or 0 as that number is positive or not; then the 122 numbers of the row
  of the type table that the entity's type (column 4, read as an integer) selects. All arithmetic is on the extended
  reals; the integer a float denotes is the float-to-integer conversion's, whatever it is: both computations apply the
  same one.
-/
import Idealize.ShloMosaic.PureOps.Ideal
import Idealize.ShloMosaic.Lib.ValueIdx

noncomputable section

namespace Cert.Encoder

open Idealize.ShloMosaic Idealize.ShloMosaic.ValueIdx

/-- The entities [256, 4096, 5], the fact counts [256, 4096], the type table [512, 122], the result [256, 4096, 128]. -/
abbrev SEnt : Shape := ⟨3, ![256, 4096, 5]⟩
abbrev SCnt : Shape := ⟨2, ![256, 4096]⟩
abbrev STab : Shape := ⟨2, ![512, 122]⟩
abbrev SOut : Shape := ⟨3, ![256, 4096, 128]⟩

/-- |az| / 180. -/
def north (az : Ideal .f32) : Ideal .f32 :=
  FloatOps.divf (FloatOps.absf az) (FloatOps.ofBits .f32 0x43340000#32)

/-- (|90 - az| if az ≥ -90, else 90 + |az + 180|) / 180. -/
def east (az : Ideal .f32) : Ideal .f32 :=
  FloatOps.divf
    (Scalar.select (FloatOps.cmpf .oge az (FloatOps.ofBits .f32 0xC2B40000#32))
      (FloatOps.absf (FloatOps.subf (FloatOps.ofBits .f32 0x42B40000#32) az))
      (FloatOps.addf (FloatOps.ofBits .f32 0x42B40000#32)
        (FloatOps.absf (FloatOps.addf az (FloatOps.ofBits .f32 0x43340000#32)))))
    (FloatOps.ofBits .f32 0x43340000#32)

/-- 1 if the count is positive, else 0. -/
def seen (cnt : Ideal .f32) : Ideal .f32 :=
  FloatOps.sitofp .f32 ((FloatOps.cmpf .ogt cnt (FloatOps.ofBits .f32 0x00000000#32)).setWidth 32)

/-- The integer a type entry denotes. -/
def typeIdx (x : Ideal .f32) : BitVec 32 := FloatOps.fptosi 32 x

/-- The table row an integer selects (an integer of the table's range selects the row of that number). -/
def row (v : BitVec 32) : Fin 512 := ⟨min v.toNat 511, by omega⟩

/-- Every entity's type is a row number of the table: as a signed integer it lies in [0, 512). -/
def TypesInRange (ent : SEnt.Idx → Ideal .f32) : Prop :=
  ∀ (b : Fin 256) (n : Fin 4096), 0 ≤ (typeIdx (ent (ix3 b n (4 : Fin 5)))).toInt
    ∧ (typeIdx (ent (ix3 b n (4 : Fin 5)))).toInt < 512

/-- Entry j of the row of batch b, entity n. -/
def outAt (ent : SEnt.Idx → Ideal .f32) (cnt : SCnt.Idx → Ideal .f32) (tab : STab.Idx → Ideal .f32)
    (b : Fin 256) (n : Fin 4096) (j : Fin 128) : Ideal .f32 :=
  if j.val = 0 then ent (ix3 b n (1 : Fin 5))
  else if j.val = 1 then north (ent (ix3 b n (2 : Fin 5)))
  else if j.val = 2 then east (ent (ix3 b n (2 : Fin 5)))
  else if j.val = 3 then ent (ix3 b n (3 : Fin 5))
  else if j.val = 4 then cnt (ix2 b n)
  else if j.val = 5 then seen (cnt (ix2 b n))
  else tab (ix2 (row (typeIdx (ent (ix3 b n (4 : Fin 5))))) ⟨j.val - 6, by have := j.isLt; omega⟩)

/-- The whole result. -/
def out (ent : SEnt.Idx → Ideal .f32) (cnt : SCnt.Idx → Ideal .f32) (tab : STab.Idx → Ideal .f32) :
    SOut.Idx → Ideal .f32 :=
  fun i => outAt ent cnt tab (i 0) (i 1) (i 2)

theorem out_ix3 (ent : SEnt.Idx → Ideal .f32) (cnt : SCnt.Idx → Ideal .f32) (tab : STab.Idx → Ideal .f32)
    (b : Fin 256) (n : Fin 4096) (j : Fin 128) : out ent cnt tab (ix3 b n j) = outAt ent cnt tab b n j := rfl

/-- A type in range selects the row of its own number. -/
theorem row_val_of_inRange (v : BitVec 32) (h0 : 0 ≤ v.toInt) (h1 : v.toInt < 512) :
    (row v).val = v.toNat ∧ v.toNat < 512 ∧ v.toInt.toNat = v.toNat := by
  have hv : v.toInt = (v.toNat : Int) := by
    rcases BitVec.toInt_eq_toNat_cond v with h
    rw [h] at h0 ⊢
    split_ifs at h0 ⊢ with hc
    · rfl
    · exfalso; have := v.isLt; omega
  have hlt : v.toNat < 512 := by omega
  refine ⟨?_, hlt, by omega⟩
  show min v.toNat 511 = v.toNat
  omega

end Cert.Encoder

end
-- ==== Proof.KernelPayloads.lean ====
/-
  What the body stores, entry by entry.

  One trip of the body's loop handles one batch row: it reads the row's 512 entities (a [1, 512, 5] block), the row's 512
  counts ([1, 512]) and the type table ([512, 122]), and stores seven blocks into the row's [1, 512, 128] result: six
  single columns and the 122 columns of the table part. Each stored block is a pure function of what was read. Here
  each is read at an index (0, n, ·):

    column 0   entity n's column 1;
    column 1   |az| / 180, az entity n's column 2;
    column 2   (|90 - az| if az ≥ -90, else 90 + |az + 180|) / 180;
    column 3   entity n's column 3;
    column 4   count n;
    column 5   1 if count n > 0, else 0;
    columns 6 + q   entry q of the table row that entity n's type selects.

  The first six are reshapes that add or drop unit axes, a one-column slice, and arithmetic applied entry by entry. The
  table part is a matrix product: the body builds the [512, 512] matrix H with H[n, c] = 1 if type n = c, else 0, and
  multiplies it by the table; entry (n, q) of the product is the sum over c of H[n, c] · table[c, q]. On the extended
  reals 0 · x = 0 and 1 · x = x for every x, the infinities included, so when type n is below 512 exactly the term
  c = type n survives and the sum is table[type n, q]. (The change of format to 16 bits before the product is the
  identity on the extended reals.)
-/
import proofs.«103184_j28845000360091_2_alg».proof.Proof.Gen.KernelIdeal.Skeleton
import proofs.«103184_j28845000360091_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx
open Cert.KernelIdeal Cert.KernelIdeal.Gen

section Layout
variable {α : Type}

/-- A [512] vector viewed as [512, 1]: entry (n, u) is entry n. -/
theorem cast_a_a1 (x : S512.Idx → α) (h : S512.ShapeCasts S512x1) (n : Fin 512) (u : Fin 1) :
    shapeCast S512x1 x h (ix2 n u) = x (ix1 n) :=
  shapeCast_apply x h _ _ (by
    have hu : u.val = 0 := by omega
    rw [Shape.rowMajor_val_two, Shape.rowMajor_val_one]
    show n.val = n.val * 1 + u.val
    omega)

/-- A [512, 1] column viewed as [512]: entry n is entry (n, 0). -/
theorem cast_a1_a (x : S512x1.Idx → α) (h : S512x1.ShapeCasts S512) (n : Fin 512) :
    shapeCast S512 x h (ix1 n) = x (ix2 n (0 : Fin 1)) :=
  shapeCast_apply x h _ _ (by
    rw [Shape.rowMajor_val_two, Shape.rowMajor_val_one]
    show n.val * 1 + 0 = n.val
    omega)

/-- A [512] vector stored as a [1, 512, 1] block: entry (u, n, w) is entry n. -/
theorem store_apply (x : S512.Idx → α) (h1 : S512.ShapeCasts S512x1) (h2 : S512x1.ShapeCasts S1x512x1)
    (u : Fin 1) (n : Fin 512) (w : Fin 1) :
    shapeCast S1x512x1 (shapeCast S512x1 x h1) h2 (ix3 u n w) = x (ix1 n) := by
  rw [shapeCast_ab_1ab_apply _ h2 u n w, cast_a_a1]

end Layout

/-- Column k of one batch row's entities as the body takes it — the row [1, 512, 5] viewed [512, 5], cut to the column
    [512, 1] at offset (0, k), viewed [512] — is, at n, entry (0, n, k) of the row. -/
theorem col_apply (v4 : Vec Ideal S1x512x5 .f32) (o : Nat) (hs : S512x5.Slices ![0, o] S512x1) (n : Fin 512) (k : Fin 5)
    (hk : k.val = o) :
    shapeCast S512 (extractStridedSlice S512x1 ![0, o] (k0_pay9 v4) hs) shapeCasts_S512x1_S512 (ix1 n)
      = v4 (ix3 (0 : Fin 1) n k) := by
  rw [cast_a1_a, slice2_axis1_apply o _ hs n (0 : Fin 1) k (by rw [hk]; rfl)]
  exact shapeCast_1ab_ab_apply v4 shapeCasts_S1x512x5_S512x5 n k

/-- The azimuths of one batch row: entry n is entity n's column 2. -/
theorem az_apply (v4 : Vec Ideal S1x512x5 .f32) (n : Fin 512) : k0_pay11 v4 (ix1 n) = v4 (ix3 (0 : Fin 1) n (2 : Fin 5)) :=
  col_apply v4 2 slices_S512x5_o0_2_S512x1 n 2 rfl

/-- The counts of one batch row viewed [512]: entry n is count (0, n). -/
theorem cnt_apply (v7 : Vec Ideal S1x512 .f32) (n : Fin 512) : k0_pay10 v7 (ix1 n) = v7 (ix2 (0 : Fin 1) n) :=
  shapeCast_1a_a_apply v7 shapeCasts_S1x512_S512 n

/-! ## The six columns that are arithmetic on one entity or one count -/

/-- Column 0 of the result row, at (u, n, w) with u, w the unit coordinates: entity n's column 1. -/
theorem pay_col1' (v4 : Vec Ideal S1x512x5 .f32) (u w : Fin 1) (n : Fin 512) :
    k0_pay2 (F := Ideal) (k0_pay17 v4) (ix3 u n w) = v4 (ix3 (0 : Fin 1) n (1 : Fin 5)) := by
  unfold k0_pay2 k0_pay17
  dsimp only
  rw [shapeCast_ab_1ab_apply _ _ u n w, cast_a_a1]
  exact col_apply v4 1 slices_S512x5_o0_1_S512x1 n 1 rfl

/-- Column 1: |az| / 180. -/
theorem pay_north' (v4 : Vec Ideal S1x512x5 .f32) (u w : Fin 1) (n : Fin 512) :
    k0_pay3 (F := Ideal) (k0_pay13 v4) (ix3 u n w) = Cert.Encoder.north (v4 (ix3 (0 : Fin 1) n (2 : Fin 5))) := by
  unfold k0_pay3
  rw [store_apply]
  show FloatOps.divf (FloatOps.absf (k0_pay11 v4 (ix1 n))) (FloatOps.ofBits .f32 0x43340000#32) = _
  rw [az_apply]
  rfl

/-- Column 2: (|90 - az| if az ≥ -90, else 90 + |az + 180|) / 180. -/
theorem pay_east' (v4 : Vec Ideal S1x512x5 .f32) (u w : Fin 1) (n : Fin 512) :
    k0_pay4 (F := Ideal) (k0_pay14 v4) (ix3 u n w) = Cert.Encoder.east (v4 (ix3 (0 : Fin 1) n (2 : Fin 5))) := by
  unfold k0_pay4
  rw [store_apply]
  show FloatOps.divf
    (Scalar.select (FloatOps.cmpf .oge (k0_pay11 v4 (ix1 n)) (FloatOps.ofBits .f32 0xC2B40000#32))
      (FloatOps.absf (FloatOps.subf (FloatOps.ofBits .f32 0x42B40000#32) (k0_pay11 v4 (ix1 n))))
      (FloatOps.addf (FloatOps.ofBits .f32 0x42B40000#32)
        (FloatOps.absf (FloatOps.addf (k0_pay11 v4 (ix1 n)) (FloatOps.ofBits .f32 0x43340000#32)))))
    (FloatOps.ofBits .f32 0x43340000#32) = _
  rw [az_apply]
  rfl

/-- Column 3: entity n's column 3. -/
theorem pay_col3' (v4 : Vec Ideal S1x512x5 .f32) (u w : Fin 1) (n : Fin 512) :
    k0_pay5 (F := Ideal) (k0_pay12 v4) (ix3 u n w) = v4 (ix3 (0 : Fin 1) n (3 : Fin 5)) := by
  unfold k0_pay5
  rw [store_apply]
  exact col_apply v4 3 slices_S512x5_o0_3_S512x1 n 3 rfl

/-- Column 4: count n. -/
theorem pay_count' (v7 : Vec Ideal S1x512 .f32) (u w : Fin 1) (n : Fin 512) :
    k0_pay6 (F := Ideal) (k0_pay10 v7) (ix3 u n w) = v7 (ix2 (0 : Fin 1) n) := by
  unfold k0_pay6
  rw [store_apply]
  exact cnt_apply v7 n

/-- Column 5: 1 if count n is positive, else 0. -/
theorem pay_seen' (v7 : Vec Ideal S1x512 .f32) (u w : Fin 1) (n : Fin 512) :
    k0_pay7 (F := Ideal) (k0_pay15 v7) (ix3 u n w) = Cert.Encoder.seen (v7 (ix2 (0 : Fin 1) n)) := by
  unfold k0_pay7
  rw [store_apply]
  show FloatOps.sitofp .f32 ((FloatOps.cmpf .ogt (k0_pay10 v7 (ix1 n)) (FloatOps.ofBits .f32 0x00000000#32)).setWidth 32) = _
  rw [cnt_apply]
  rfl

/-! ## The table row: a one-hot matrix times the table -/

/-- The body's one-hot entry: 1 where the type is the column's number, else 0. -/
def onehot (t : BitVec 32) (c : Fin 512) : Ideal .f32 :=
  FloatOps.sitofp .f32 ((IntOp.cmpi .eq t (BitVec.ofNat 32 c.val)).setWidth 32)

/-- It is 1 at the column whose number is the type … -/
theorem onehot_self (t : BitVec 32) (c : Fin 512) (h : t = BitVec.ofNat 32 c.val) : onehot t c = (1 : EReal) := by
  subst h
  unfold onehot IntOp.cmpi
  show ((((BitVec.ofBool (BitVec.ofNat 32 c.val == BitVec.ofNat 32 c.val)).setWidth 32 : BitVec 32).toInt : ℝ) : EReal) = 1
  rw [beq_self_eq_true]
  have e : ((BitVec.ofBool true).setWidth 32 : BitVec 32).toInt = 1 := by decide
  rw [e]
  simp

/-- … and 0 at every other column. -/
theorem onehot_ne (t : BitVec 32) (c : Fin 512) (h : t ≠ BitVec.ofNat 32 c.val) : onehot t c = (0 : EReal) := by
  unfold onehot IntOp.cmpi
  show ((((BitVec.ofBool (t == BitVec.ofNat 32 c.val)).setWidth 32 : BitVec 32).toInt : ℝ) : EReal) = 0
  rw [beq_eq_false_iff_ne.2 h]
  have e : ((BitVec.ofBool false).setWidth 32 : BitVec 32).toInt = 0 := by decide
  rw [e]
  simp

/-- The entities' types of one batch row, as integers. -/
def types (v4 : Vec Ideal S1x512x5 .f32) : IVec S512 32 :=
  fptosi 32 (shapeCast S512 (extractStridedSlice S512x1 ![0, 4] (k0_pay9 v4) slices_S512x5_o0_4_S512x1) shapeCasts_S512x1_S512)

/-- Entry n is the integer of entity n's column 4. -/
theorem types_apply (v4 : Vec Ideal S1x512x5 .f32) (n : Fin 512) :
    types v4 (ix1 n) = Cert.Encoder.typeIdx (v4 (ix3 (0 : Fin 1) n (4 : Fin 5))) :=
  congrArg (FloatOps.fptosi 32) (col_apply v4 4 slices_S512x5_o0_4_S512x1 n 4 rfl)

/-- The one-hot matrix [512, 512] of a vector of types: row n has its 1 in the column whose number is type n. -/
def hot (t : IVec S512 32) : FVec Ideal S512x512 .bf16 :=
  truncf .bf16 (sitofp .f32 (extui 32 (cmpi .eq
    (broadcastTo S512x512 (shapeCast S512x1 t shapeCasts_S512_S512x1) broadcasts_S512x1_S512x512)
    (iota .tc S512x512 32 [1] iota_S512x512_d1_w32)) natLt_1_32)) bitsLt_bf16_f32

/-- Entry (n, c) of the one-hot matrix: the type of row n broadcast along the row, compared with the column number c. -/
theorem hot_apply (t : IVec S512 32) (n c : Fin 512) : hot t (ix2 n c) = onehot (t (ix1 n)) c := by
  show FloatOps.sitofp (F := Ideal) .f32 ((IntOp.cmpi .eq
    (broadcastTo S512x512 (shapeCast S512x1 t shapeCasts_S512_S512x1) broadcasts_S512x1_S512x512 (ix2 n c))
    (iota .tc S512x512 32 [1] iota_S512x512_d1_w32 (ix2 n c))).setWidth 32) = _
  rw [iota_single_apply, broadcastTo_apply _ broadcasts_S512x1_S512x512 (ix2 n c) (ix2 n (0 : Fin 1)) (fun a => match a with
    | ⟨0, _⟩ => by show n.val = if (512 : Nat) = 1 then 0 else n.val; rw [if_neg (by decide)]
    | ⟨1, _⟩ => by show 0 = if (1 : Nat) = 1 then 0 else c.val; rw [if_pos rfl]), cast_a_a1]
  rfl

/-- The body's matrix product [512, 512] × [512, 122] into a zero accumulator, at (n, q): the sum over the contracted
    coordinate of the products of the entries. -/
theorem matmul_read (A : FVec Ideal S512x512 .bf16) (B : FVec Ideal S512x122 .bf16) (n : Fin 512) (q : Fin 122) :
    matmul dot_S512x512_S512x122_S512x122_1_0_0_1_n_n none A B (constant S512x122 .f32 0x00000000#32) (ix2 n q)
      = ∑ c : Fin 512, A (ix2 n c) * B (ix2 c q) := by
  show FloatOps.matmul _ none A B _ (ix2 n q) = _
  rw [Ideal.matmul_constant_zero_apply,
    ← Equiv.sum_comp (contrEquiv1 dot_S512x512_S512x122_S512x122_1_0_0_1_n_n 512 rfl rfl).symm]
  refine Finset.sum_congr rfl fun c _ => ?_
  have c2 := contrEquiv1_symm_val dot_S512x512_S512x122_S512x122_1_0_0_1_n_n 512 rfl rfl c
  have l2 : dot_S512x512_S512x122_S512x122_1_0_0_1_n_n.lhsIdx (ix2 n q) ((contrEquiv1 _ 512 rfl rfl).symm c) = ix2 n c := by
    funext ax; apply Fin.ext
    match ax with
    | ⟨0, _⟩ => simp [DotDims.lhsIdx, dot_S512x512_S512x122_S512x122_1_0_0_1_n_n]; rfl
    | ⟨1, _⟩ => simp [DotDims.lhsIdx, dot_S512x512_S512x122_S512x122_1_0_0_1_n_n]; exact c2
  have r2 : dot_S512x512_S512x122_S512x122_1_0_0_1_n_n.rhsIdx (ix2 n q) ((contrEquiv1 _ 512 rfl rfl).symm c) = ix2 c q := by
    funext ax; apply Fin.ext
    match ax with
    | ⟨0, _⟩ => simp [DotDims.rhsIdx, dot_S512x512_S512x122_S512x122_1_0_0_1_n_n]; exact c2
    | ⟨1, _⟩ => simp [DotDims.rhsIdx, dot_S512x512_S512x122_S512x122_1_0_0_1_n_n]; rfl
  rw [l2, r2]

/-- The table part before it is stored: the one-hot matrix of the row's types times the table. -/
theorem pay16_eq (v0 : Vec Ideal S512x122 .f32) (v4 : Vec Ideal S1x512x5 .f32) :
    k0_pay16 (F := Ideal) (k0_pay1 v0) v4
      = matmul dot_S512x512_S512x122_S512x122_1_0_0_1_n_n none (hot (types v4)) (truncf .bf16 v0 bitsLt_bf16_f32)
          (constant S512x122 .f32 0x00000000#32) := rfl

/-- Columns 6 + q at (u, n, q): of the sum over c of onehot(type n, c) · table[c, q] only c = type n survives. -/
theorem pay_table' (v4 : Vec Ideal S1x512x5 .f32) (v0 : Vec Ideal S512x122 .f32) (u : Fin 1) (n : Fin 512) (q : Fin 122)
    (h : (Cert.Encoder.typeIdx (v4 (ix3 (0 : Fin 1) n (4 : Fin 5)))).toNat < 512) :
    k0_pay8 (F := Ideal) (k0_pay16 (k0_pay1 v0) v4) (ix3 u n q)
      = v0 (ix2 (Cert.Encoder.row (Cert.Encoder.typeIdx (v4 (ix3 (0 : Fin 1) n (4 : Fin 5))))) q) := by
  unfold k0_pay8
  rw [shapeCast_ab_1ab_apply _ _ u n q, pay16_eq, matmul_read]
  simp only [hot_apply, types_apply]
  generalize Cert.Encoder.typeIdx (v4 (ix3 (0 : Fin 1) n (4 : Fin 5))) = t at h ⊢
  have hc : t = BitVec.ofNat 32 t.toNat := by simp
  have hrow : Cert.Encoder.row t = (⟨t.toNat, h⟩ : Fin 512) := Fin.ext (by show min t.toNat 511 = t.toNat; omega)
  rw [Finset.sum_eq_single (⟨t.toNat, h⟩ : Fin 512), onehot_self t ⟨t.toNat, h⟩ hc, truncf_apply, one_mul, hrow]
  · intro c _ hne
    have hne' : t ≠ BitVec.ofNat 32 c.val := fun e => hne (Fin.ext (by
      have e' := congrArg BitVec.toNat e
      rw [BitVec.toNat_ofNat, Nat.mod_eq_of_lt (by have := c.isLt; omega)] at e'
      exact e'.symm))
    rw [onehot_ne t c hne', zero_mul]
  · intro hn; exact absurd (Finset.mem_univ _) hn

/-! ## The seven stored blocks at (0, n, ·) -/

/-- Column 0 of the result row: entity n's column 1. -/
theorem pay_col1 (v4 : Vec Ideal S1x512x5 .f32) (n : Fin 512) :
    k0_pay2 (F := Ideal) (k0_pay17 v4) (ix3 (0 : Fin 1) n (0 : Fin 1)) = v4 (ix3 (0 : Fin 1) n (1 : Fin 5)) :=
  pay_col1' v4 0 0 n

/-- Column 1: |az| / 180. -/
theorem pay_north (v4 : Vec Ideal S1x512x5 .f32) (n : Fin 512) :
    k0_pay3 (F := Ideal) (k0_pay13 v4) (ix3 (0 : Fin 1) n (0 : Fin 1))
      = Cert.Encoder.north (v4 (ix3 (0 : Fin 1) n (2 : Fin 5))) :=
  pay_north' v4 0 0 n

/-- Column 2: (|90 - az| if az ≥ -90, else 90 + |az + 180|) / 180. -/
theorem pay_east (v4 : Vec Ideal S1x512x5 .f32) (n : Fin 512) :
    k0_pay4 (F := Ideal) (k0_pay14 v4) (ix3 (0 : Fin 1) n (0 : Fin 1))
      = Cert.Encoder.east (v4 (ix3 (0 : Fin 1) n (2 : Fin 5))) :=
  pay_east' v4 0 0 n

/-- Column 3: entity n's column 3. -/
theorem pay_col3 (v4 : Vec Ideal S1x512x5 .f32) (n : Fin 512) :
    k0_pay5 (F := Ideal) (k0_pay12 v4) (ix3 (0 : Fin 1) n (0 : Fin 1)) = v4 (ix3 (0 : Fin 1) n (3 : Fin 5)) :=
  pay_col3' v4 0 0 n

/-- Column 4: count n. -/
theorem pay_count (v7 : Vec Ideal S1x512 .f32) (n : Fin 512) :
    k0_pay6 (F := Ideal) (k0_pay10 v7) (ix3 (0 : Fin 1) n (0 : Fin 1)) = v7 (ix2 (0 : Fin 1) n) :=
  pay_count' v7 0 0 n

/-- Column 5: 1 if count n is positive, else 0. -/
theorem pay_seen (v7 : Vec Ideal S1x512 .f32) (n : Fin 512) :
    k0_pay7 (F := Ideal) (k0_pay15 v7) (ix3 (0 : Fin 1) n (0 : Fin 1))
      = Cert.Encoder.seen (v7 (ix2 (0 : Fin 1) n)) :=
  pay_seen' v7 0 0 n

/-- Columns 6 + q: entry q of the table row that entity n's type selects, when the type is below 512. -/
theorem pay_table (v4 : Vec Ideal S1x512x5 .f32) (v0 : Vec Ideal S512x122 .f32) (n : Fin 512) (q : Fin 122)
    (h : (Cert.Encoder.typeIdx (v4 (ix3 (0 : Fin 1) n (4 : Fin 5)))).toNat < 512) :
    k0_pay8 (F := Ideal) (k0_pay16 (k0_pay1 v0) v4) (ix3 (0 : Fin 1) n q)
      = v0 (ix2 (Cert.Encoder.row (Cert.Encoder.typeIdx (v4 (ix3 (0 : Fin 1) n (4 : Fin 5))))) q) :=
  pay_table' v4 v0 0 n q h

end Cert.KernelIdeal.PayloadValue

end
-- ==== Proof.BlockValue.lean ====
/-
  ONE BLOCK OF THE KERNEL'S RESULT IS THE SPECIFIED ROWS OF THAT BLOCK.

  The kernel works on blocks: 32 batch rows by 512 entities. The block at grid position (bi, bj) holds batch rows
  bi · 32 + r and entities bj · 512 + n of the whole arrays. Entry (r, n, j) of the block the body stores is column
  group j's stored value of row r at entity n; each stored value is a function of row r's entity n, of row r's count
  n, or of one table entry. With the block's contents named by the whole arrays, these are the entries of the
  specified row (bi · 32 + r, bj · 512 + n).
-/
import proofs.«103184_j28845000360091_2_alg».proof.Proof.KernelRows
import proofs.«103184_j28845000360091_2_alg».proof.Proof.KernelPayloads
import proofs.«103184_j28845000360091_2_alg».proof.Proof.Spec
import Idealize.ShloMosaic.Lib.ValueIdx

noncomputable section

namespace Cert.KernelIdeal.BlockValue

open Idealize.ShloMosaic Idealize.ShloMosaic.ValueIdx
open Cert.KernelIdeal Cert.KernelIdeal.Gen Cert.KernelIdeal.Body Cert.KernelIdeal.PayloadValue

/-- The block's entry (r, n, j): the stored value of column group j, of row r, at entity n. -/
theorem blockOut_ix3 (x0 : Vec Ideal S32x512x5 .f32) (x1 : Vec Ideal S32x512 .f32) (x2 : Vec Ideal S512x122 .f32)
    (r : Fin 32) (n : Fin 512) (j : Fin 128) :
    blockOut (F := Ideal) x0 x1 x2 (ix3 r n j)
      = if j.val = 0 then k0_pay2 (k0_pay17 (rowEnt x0 r)) (ix3 (0 : Fin 1) n (0 : Fin 1))
        else if j.val = 1 then k0_pay3 (k0_pay13 (rowEnt x0 r)) (ix3 (0 : Fin 1) n (0 : Fin 1))
        else if j.val = 2 then k0_pay4 (k0_pay14 (rowEnt x0 r)) (ix3 (0 : Fin 1) n (0 : Fin 1))
        else if j.val = 3 then k0_pay5 (k0_pay12 (rowEnt x0 r)) (ix3 (0 : Fin 1) n (0 : Fin 1))
        else if j.val = 4 then k0_pay6 (k0_pay10 (rowCnt x1 r)) (ix3 (0 : Fin 1) n (0 : Fin 1))
        else if j.val = 5 then k0_pay7 (k0_pay15 (rowCnt x1 r)) (ix3 (0 : Fin 1) n (0 : Fin 1))
        else k0_pay8 (k0_pay16 (k0_pay1 x2) (rowEnt x0 r))
          (ix3 (0 : Fin 1) n (⟨j.val - 6, by have := j.isLt; omega⟩ : Fin 122)) := rfl

/-- Row r of the entity block at entity n, column k, is the block's entry (r, n, k). -/
theorem rowEnt_at (x0 : Vec Ideal S32x512x5 .f32) (r : Fin 32) (n : Fin 512) (k : Fin 5) :
    rowEnt x0 r (ix3 (0 : Fin 1) n k) = x0 (ix3 r n k) := rfl

/-- Row r of the count block at entity n is the block's entry (r, n). -/
theorem rowCnt_at (x1 : Vec Ideal S32x512 .f32) (r : Fin 32) (n : Fin 512) :
    rowCnt x1 r (ix2 (0 : Fin 1) n) = x1 (ix2 r n) := rfl

theorem blockOut_eq
    (E : Cert.Encoder.SEnt.Idx → Ideal .f32) (C : Cert.Encoder.SCnt.Idx → Ideal .f32) (T : Cert.Encoder.STab.Idx → Ideal .f32)
    (hin : Cert.Encoder.TypesInRange E) (bi bj : ℕ) (hbi : bi < 8) (hbj : bj < 8)
    (x0 : Vec Ideal Cert.KernelIdeal.S32x512x5 .f32) (x1 : Vec Ideal Cert.KernelIdeal.S32x512 .f32)
    (x2 : Vec Ideal Cert.KernelIdeal.S512x122 .f32)
    (h0 : ∀ (r : Fin 32) (n : Fin 512) (k : Fin 5),
      x0 (ix3 r n k) = E (ix3 (⟨bi * 32 + r.val, by omega⟩ : Fin 256) (⟨bj * 512 + n.val, by omega⟩ : Fin 4096) k))
    (h1 : ∀ (r : Fin 32) (n : Fin 512),
      x1 (ix2 r n) = C (ix2 (⟨bi * 32 + r.val, by omega⟩ : Fin 256) (⟨bj * 512 + n.val, by omega⟩ : Fin 4096)))
    (h2 : x2 = T)
    (r : Fin 32) (n : Fin 512) (j : Fin 128) :
    Cert.KernelIdeal.Body.blockOut (F := Ideal) x0 x1 x2 (ix3 r n j)
      = Cert.Encoder.outAt E C T (⟨bi * 32 + r.val, by omega⟩ : Fin 256) (⟨bj * 512 + n.val, by omega⟩ : Fin 4096) j := by
  obtain ⟨ht0, ht1⟩ := hin (⟨bi * 32 + r.val, by omega⟩ : Fin 256) (⟨bj * 512 + n.val, by omega⟩ : Fin 4096)
  obtain ⟨_, hlt, _⟩ := Cert.Encoder.row_val_of_inRange _ ht0 ht1
  have hty : (Cert.Encoder.typeIdx (rowEnt x0 r (ix3 (0 : Fin 1) n (4 : Fin 5)))).toNat < 512 := by
    rw [rowEnt_at, h0]; exact hlt
  rw [blockOut_ix3, pay_col1, pay_north, pay_east, pay_col3, pay_count, pay_seen, pay_table _ _ _ _ hty]
  simp only [rowEnt_at, rowCnt_at, h0, h1]
  subst h2
  rfl

end Cert.KernelIdeal.BlockValue

end
-- ==== Proof.KernelValue.lean ====
import proofs.«103184_j28845000360091_2_alg».proof.Proof.KernelBody
import proofs.«103184_j28845000360091_2_alg».proof.Proof.BlockValue
import Idealize.ShloMosaic.Lib.Pipeline.Value

set_option maxRecDepth 16384

noncomputable section

namespace Cert.KernelIdeal.OutValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## From the blocks to the array

The grid is 8 by 8. At point (gi, gj) the entity window and the count window sit at block (gi, gj) of their arrays, the
table window is the whole table, and the result window is block (gi, gj) of the result: rows 32·gi … 32·gi + 31, entities
512·gj … 512·gj + 511, all 128 columns. What a point writes back is the result's specification restricted to its block,
and the 64 blocks cover the result. -/

/-- The printed index maps, decided over the grid. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = win0_3.index t (0 : Fin 3) ∧ win0_1.index t (1 : Fin 2) = win0_3.index t (1 : Fin 3)
    ∧ win0_2.index t (0 : Fin 2) = 0 ∧ win0_2.index t (1 : Fin 2) = 0
    ∧ win0_3.index t (0 : Fin 3) ≤ 7 ∧ win0_3.index t (1 : Fin 3) ≤ 7 ∧ win0_3.index t (2 : Fin 3) = 0 :=
  (by decide +kernel : ∀ t : Fin grid0.N, _)

/-- Every block of the result is some point's. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- The three arrays the region reads, as it finds them. -/
abbrev entA (c : Dev nD) : Cert.Encoder.SEnt.Idx → Ideal .f32 := V m c main_arg0
abbrev cntA (c : Dev nD) : Cert.Encoder.SCnt.Idx → Ideal .f32 := V m c main_v16
abbrev tabA (c : Dev nD) : Cert.Encoder.STab.Idx → Ideal .f32 := V m c main_arg2

/-- What point t writes back is block t of the specification of the three arrays. -/
theorem flushed3_eq (c : Dev nD) (hin : Cert.Encoder.TypesInRange (entA m c)) (t : Fin cfg0.N) :
    (dats m 0 c).flushed 3 t
      = ((cfg0.win 3).blk t).view.read (Elt Ideal) (Cert.Encoder.out (entA m c) (cntA m c) (tabA m c)) := by
  show (cfg0.win 3).cut (grid0.coords t) ((dats m 0 c).after 3 t) = _
  rw [after0_3]
  obtain ⟨e00, e01, e02, e10, e11, e20, e21, l0, l1, z2⟩ := idx_facts t
  funext j
  obtain ⟨r, n, q, rfl⟩ : ∃ (r : Fin 32) (n : Fin 512) (q : Fin 128), j = ix3 r n q := ⟨j 0, j 1, j 2, eq_ix3 j⟩
  show blockOut (iblk m c 0 t) (iblk m c 1 t) (iblk m c 2 t) (ix3 r n q)
    = Cert.Encoder.out (entA m c) (cntA m c) (tabA m c) (((cfg0.win 3).blk t).view.emb (ix3 r n q))
  have hb0 : win0_3.index t (0 : Fin 3) < 8 := by omega
  have hb1 : win0_3.index t (1 : Fin 3) < 8 := by omega
  have h0 : ∀ (r : Fin 32) (n : Fin 512) (k : Fin 5), iblk m c 0 t (ix3 r n k)
      = entA m c (ix3 (⟨win0_3.index t (0 : Fin 3) * 32 + r.val, by omega⟩ : Fin 256) (⟨win0_3.index t (1 : Fin 3) * 512 + n.val, by omega⟩ : Fin 4096) k) := by
    intro r n k
    show V m c main_arg0 (((cfg0.win 0).blk t).view.emb (ix3 r n k)) = V m c main_arg0 _
    refine congrArg (V m c main_arg0) (funext fun a => Fin.ext ?_)
    match a with
    | ⟨0, _⟩ => show win0_0.index t (0 : Fin 3) * 32 + 1 * r.val = win0_3.index t (0 : Fin 3) * 32 + r.val; omega
    | ⟨1, _⟩ => show win0_0.index t (1 : Fin 3) * 512 + 1 * n.val = win0_3.index t (1 : Fin 3) * 512 + n.val; omega
    | ⟨2, _⟩ => show win0_0.index t (2 : Fin 3) * 5 + 1 * k.val = k.val; omega
  have h1 : ∀ (r : Fin 32) (n : Fin 512), iblk m c 1 t (ix2 r n)
      = cntA m c (ix2 (⟨win0_3.index t (0 : Fin 3) * 32 + r.val, by omega⟩ : Fin 256) (⟨win0_3.index t (1 : Fin 3) * 512 + n.val, by omega⟩ : Fin 4096)) := by
    intro r n
    show V m c main_v16 (((cfg0.win 1).blk t).view.emb (ix2 r n)) = V m c main_v16 _
    refine congrArg (V m c main_v16) (funext fun a => Fin.ext ?_)
    match a with
    | ⟨0, _⟩ => show win0_1.index t (0 : Fin 2) * 32 + 1 * r.val = win0_3.index t (0 : Fin 3) * 32 + r.val; omega
    | ⟨1, _⟩ => show win0_1.index t (1 : Fin 2) * 512 + 1 * n.val = win0_3.index t (1 : Fin 3) * 512 + n.val; omega
  have h2 : iblk m c 2 t = tabA m c := by
    funext u
    show V m c main_arg2 (((cfg0.win 2).blk t).view.emb u) = V m c main_arg2 u
    refine congrArg (V m c main_arg2) (funext fun a => Fin.ext ?_)
    match a with
    | ⟨0, _⟩ => show win0_2.index t (0 : Fin 2) * 512 + 1 * (u 0).val = (u 0).val; omega
    | ⟨1, _⟩ => show win0_2.index t (1 : Fin 2) * 122 + 1 * (u 1).val = (u 1).val; omega
  rw [Cert.KernelIdeal.BlockValue.blockOut_eq (entA m c) (cntA m c) (tabA m c) hin
    (win0_3.index t (0 : Fin 3)) (win0_3.index t (1 : Fin 3)) hb0 hb1 _ _ _ h0 h1 h2 r n q]
  show Cert.Encoder.outAt _ _ _ _ _ _ = Cert.Encoder.outAt _ _ _ _ _ _
  congr 1
  · refine Fin.ext ?_
    show win0_3.index t (0 : Fin 3) * 32 + r.val = win0_3.index t (0 : Fin 3) * 32 + 1 * r.val; omega
  · refine Fin.ext ?_
    show win0_3.index t (1 : Fin 3) * 512 + n.val = win0_3.index t (1 : Fin 3) * 512 + 1 * n.val; omega
  · refine Fin.ext ?_
    show q.val = win0_3.index t (2 : Fin 3) * 128 + 1 * q.val; omega

/-- An index of the result is in point t's block iff each coordinate is in the block's range on its axis. -/
theorem mem_blk3 (t : Fin cfg0.N) (i : S256x4096x128.Idx) :
    i ∈ ((cfg0.win 3).blk t).view.set ↔ ∀ a : Fin 3, win0_3.index t a * S32x512x128.size a ≤ (i a).val ∧ (i a).val < win0_3.index t a * S32x512x128.size a + S32x512x128.size a := by
  show i ∈ ((View.whole main_v17).slice (win0_3.rect t)).set ↔ _
  rw [View.set_slice_whole, Rect.mem_set_unit]
  exact Iff.rfl

/-- The result array after the run is the specification of the three arrays. -/
theorem final3 (c : Dev nD) (hin : Cert.Encoder.TypesInRange (entA m c)) :
    (dats m 0 c).arrAt 3 cfg0.N = Cert.Encoder.out (entA m c) (cntA m c) (tabA m c) :=
  (dats m 0 c).arrAt_eq_of_cover 3 (Cert.Encoder.out (entA m c) (cntA m c) (tabA m c)) (fun t _ => flushed3_eq m c hin t) fun i => by
    have hi0 : (i 0).val < 256 := (i 0).isLt
    have hi1 : (i 1).val < 4096 := (i 1).isLt
    have hi2 : (i 2).val < 128 := (i 2).isLt
    obtain ⟨t, ht⟩ := idx_onto ⟨(i 0).val / 32, by omega⟩ ⟨(i 1).val / 512, by omega⟩
    have q0 : win0_3.index t (0 : Fin 3) = (i 0).val / 32 := congrFun ht 0
    have q1 : win0_3.index t (1 : Fin 3) = (i 1).val / 512 := congrFun ht 1
    have q2 : win0_3.index t (2 : Fin 3) = 0 := congrFun ht 2
    refine ⟨t, flush0_3 t, ?_⟩
    rw [mem_blk3]
    intro a
    match a with
    | ⟨0, _⟩ => show win0_3.index t (0 : Fin 3) * 32 ≤ (i 0).val ∧ (i 0).val < win0_3.index t (0 : Fin 3) * 32 + 32; omega
    | ⟨1, _⟩ => show win0_3.index t (1 : Fin 3) * 512 ≤ (i 1).val ∧ (i 1).val < win0_3.index t (1 : Fin 3) * 512 + 512; omega
    | ⟨2, _⟩ => show win0_3.index t (2 : Fin 3) * 128 ≤ (i 2).val ∧ (i 2).val < win0_3.index t (2 : Fin 3) * 128 + 128; omega

/-- After the frame run the result array is the proof data's, the arguments as launched. -/
theorem post3 (r : PUnit × MemSt nD τ sig (Elt Ideal)) (h : Pipeline.FramePost cfgs (dats m) 0 (V m) r) (c : Dev nD) :
    r.2.mem ((c : Thread nD τ).loc main_v17) = (dats m 0 c).arrAt 3 cfg0.N :=
  (h c).1 3

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run, read: when every entity's type is a row number of the table, the result array ends at the specification of
    the entities, the fact counts the host operations computed, and the table; the arguments end unchanged. -/
theorem run (hin : ∀ c : Dev nD, Cert.Encoder.TypesInRange (entA m c)) :
    θ_run defs (onTc (τ := τ) (main (F := Ideal))) ⟨m, fun _ => 0, ρ⟩ fun r => ∀ c : Dev nD,
      r.2.mem ((c : Thread nD τ).loc main_v17) = Cert.Encoder.out (entA m c) (cntA m c) (tabA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c (hin c)),
      kept_main_arg0 m r h c, kept_main_arg1 m r h c, kept_main_arg2 m r h c⟩)
    (run_main m ρ)

end Cert.KernelIdeal.OutValue

end
-- ==== Proof.LibAfter.lean ====
/-
  A LINE OF HOST OPERATIONS, CUT IN TWO.

  The contents a device's buffers hold after a straight line of host operations is a fold of the operations' results
  over the contents the line starts from. The fold over a concatenation is the fold over the second part, started from
  the fold over the first; so a long line can be read a stretch at a time, each stretch from contents that are a
  variable: what a stretch leaves in a buffer is then a small term over the few buffers the stretch reads.
-/
import Idealize.ShloMosaic.Lib.StableHlo.Run

noncomputable section

namespace Cert.Lib

open Idealize.ShloMosaic Idealize.ShloMosaic.StableHlo

variable {τ : Topo} {sig : RefSig} {Val : EltTy → Type}

/-- The fold over two lines one after the other is the second's fold from the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations: the rest's fold, from the first `k`'s. -/
theorem after_take_drop (l : List (HloOp τ sig Val)) (k : Nat) (V : Valuation τ sig Val) :
    after l V = after (l.drop k) (after (l.take k) V) := by
  rw [← after_append, List.take_append_drop]

end Cert.Lib

end
-- ==== Proof.LibSevenPieces.lean ====
/-
  A HOST OPERATION OVER SEVEN LITERAL OPERANDS, READ AT ITS RESULT.

  A many-operand host operation (a concatenate of seven arrays) is given its operands as a family indexed by
  k = 0 … 6. Its result is the operation's function applied to the family "the contents at operand k". When the seven
  operands are seven named buffers, that family is the seven contents one after the other: stated with each operand's
  contents at its own buffer, so that a reading of the program's valuation can go on, operand by operand, into what
  wrote each of them.
-/
import Idealize.ShloMosaic.Lib.StableHlo.Run
import proofs.«103184_j28845000360091_2_alg».proof.Proof.LibAfter

noncomputable section

namespace Idealize.ShloMosaic.StableHlo

open TcCoe

variable {τ : Topo} {sig : RefSig} {Val : EltTy → Type}
variable {x0 x1 x2 x3 x4 x5 x6 y : Ref sig .tc}

/-- The result of an operation over the seven literal operands x0 … x6 is its function at the seven contents, each
    read at its own buffer. -/
theorem nary7_result
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (Fin.cons (F (Proc.devRef .tc x6)) (fun i => i.elim0)))))))) := by
  rw [nary_result]; congr 1; funext k; fin_cases k <;> rfl

/-- The same, in the form a simplifier pass over a valuation uses (the result buffer matched as it stands). -/
theorem nary7_result'
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (Fin.cons (F (Proc.devRef .tc x6)) (fun i => i.elim0)))))))) :=
  nary7_result f hxs hy F

/-- One simplifier pass that reads a list of host operations' valuation at a buffer, a seven-operand operation among
    them: the library's pass with the seven-operand reading in place of the general many-operand one (which leaves the
    operands under a binder, where no further reading applies). -/
macro "after_results_simp7" : tactic =>
  `(tactic| (simp (disch := decide) only [after_cons, after_nil,
      nullary_result', unary_result', binary_result', ternary_result', quaternary_result', reshape_result', nary4_result', nary7_result',
      unaryIndexed_result', binaryIndexed_result',
      nullary_result_ne', unary_result_ne', binary_result_ne', ternary_result_ne', quaternary_result_ne', reshape_result_ne',
      nary_result_ne', unaryIndexed_result_ne', binaryIndexed_result_ne']))

/-- A line of host operations that ENDS with an operation over seven literal operands x0 … x6, none of them its
    result: what the line leaves in that result is the operation's function at what the line leaves in the seven
    operands (the last operation writes none of them). -/
theorem after_last_nary7 (ops : List (HloOp τ sig Val)) (k : Nat)
    (f : ((j : Fin 7) → ((![x0, x1, x2, x3, x4, x5, x6] : Fin 7 → Ref sig .tc) j).ty.Contents Val) → y.ty.Contents Val) (hxs hy)
    (hdrop : ops.drop k = [nary (τ := τ) ![x0, x1, x2, x3, x4, x5, x6] y f hxs hy])
    (h0 : x0 ≠ y) (h1 : x1 ≠ y) (h2 : x2 ≠ y) (h3 : x3 ≠ y) (h4 : x4 ≠ y) (h5 : x5 ≠ y) (h6 : x6 ≠ y)
    (V : Valuation τ sig Val) :
    after ops V (Proc.devRef .tc y)
      = f (Fin.cons (after ops V (Proc.devRef .tc x0)) (Fin.cons (after ops V (Proc.devRef .tc x1)) (Fin.cons (after ops V (Proc.devRef .tc x2))
          (Fin.cons (after ops V (Proc.devRef .tc x3)) (Fin.cons (after ops V (Proc.devRef .tc x4)) (Fin.cons (after ops V (Proc.devRef .tc x5))
            (Fin.cons (after ops V (Proc.devRef .tc x6)) (fun i => i.elim0)))))))) := by
  have hcut : after ops V = (nary (τ := τ) ![x0, x1, x2, x3, x4, x5, x6] y f hxs hy).result (after (ops.take k) V) := by
    rw [Cert.Lib.after_take_drop ops k V, hdrop]; rfl
  have e0 := nary_result_ne' (τ := τ) ![x0, x1, x2, x3, x4, x5, x6] f hxs hy (after (ops.take k) V) h0
  have e1 := nary_result_ne' (τ := τ) ![x0, x1, x2, x3, x4, x5, x6] f hxs hy (after (ops.take k) V) h1
  have e2 := nary_result_ne' (τ := τ) ![x0, x1, x2, x3, x4, x5, x6] f hxs hy (after (ops.take k) V) h2
  have e3 := nary_result_ne' (τ := τ) ![x0, x1, x2, x3, x4, x5, x6] f hxs hy (after (ops.take k) V) h3
  have e4 := nary_result_ne' (τ := τ) ![x0, x1, x2, x3, x4, x5, x6] f hxs hy (after (ops.take k) V) h4
  have e5 := nary_result_ne' (τ := τ) ![x0, x1, x2, x3, x4, x5, x6] f hxs hy (after (ops.take k) V) h5
  have e6 := nary_result_ne' (τ := τ) ![x0, x1, x2, x3, x4, x5, x6] f hxs hy (after (ops.take k) V) h6
  rw [hcut, nary7_result, e0, e1, e2, e3, e4, e5, e6]

end Idealize.ShloMosaic.StableHlo

end
-- ==== Proof.RefRun.lean ====
/-
  THE REFERENCE'S RUN.

  The reference program is a straight line of 69 host operations. Every weakly fair execution of it terminates, with the
  result buffer at the composition of the operations' functions applied to the three argument arrays, and the argument
  arrays unchanged. The result's operation is the last of the line, a concatenate of seven arrays that six slices and
  broadcasts and a gather wrote before it: what the line leaves in the result is the concatenate of what it leaves in
  those seven, each of which is read off the line in the usual way.
-/
import proofs.«103184_j28845000360091_2_alg».proof.Proof.RefReadP
import proofs.«103184_j28845000360091_2_alg».proof.Proof.LibSevenPieces
import Idealize.ShloMosaic.Lib.StableHlo.Run

noncomputable section

namespace Cert.ReferenceIdeal.RunValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 69 operations, in order (a called function's operations stand in its call's place, spelt `TRef.…`). -/
abbrev ops : List (HloOp τ sig (Elt F)) :=
  [ unary main_arg0 main_v0 ((extractStridedSlice S256x4096x1 ![0, 0, 2] · slices_S256x4096x5_S256x4096x1_0_0_2) : (⟨S256x4096x5, .f32⟩ : BufTy).Contents (Elt F) → (⟨S256x4096x1, .f32⟩ : BufTy).Contents (Elt F)),
    reshape main_v0 main_v1 rfl shapeCasts_S256x4096x1_S256x4096,
    unary main_v1 main_v2 (Host.absf : (⟨S256x4096, .f32⟩ : BufTy).Contents (Elt F) → (⟨S256x4096, .f32⟩ : BufTy).Contents (Elt F)),
    nullary main_cst (constant S_ .f32 0x43340000#32),
    unary main_cst main_v3 (broadcastInDim S256x4096 ![] bcast_S_S256x4096 : (⟨S_, .f32⟩ : BufTy).Contents (Elt F) → (⟨S256x4096, .f32⟩ : BufTy).Contents (Elt F)),
    binary main_v2 main_v3 main_v4 (Host.divf : (⟨S256x4096, .f32⟩ : BufTy).Contents (Elt F) → (⟨S256x4096, .f32⟩ : BufTy).Contents (Elt F) → (⟨S256x4096, .f32⟩ : BufTy).Contents (Elt F)),
    nullary main_cst_0 (constant S_ .f32 0xC2B40000#32),
    unary main_cst_0 main_v5 (broadcastInDim S256x4096 ![] bcast_S_S256x4096 : (⟨S_, .f32⟩ : BufTy).Contents (Elt F) → (⟨S256x4096, .f32⟩ : BufTy).Contents (Elt F)),
    binary main_v1 main_v5 main_v6 (cmpf .oge : (⟨S256x4096, .f32⟩ : BufTy).Contents (Elt F) → (⟨S256x4096, .f32⟩ : BufTy).Contents (Elt F) → (⟨S256x4096, .i1⟩ : BufTy).Contents (Elt F)),
    nullary main_cst_1 (constant S_ .f32 0x42B40000#32),
    unary main_cst_1 main_v7 (broadcastInDim S256x4096 ![] bcast_S_S256x4096 : (⟨S_, .f32⟩ : BufTy).Contents (Elt F) → (⟨S256x4096, .f32⟩ : BufTy).Contents (Elt F)),
    binary main_v7 main_v1 main_v8 (subf : (⟨S256x4096, .f32⟩ : BufTy).Contents (Elt F) → (⟨S256x4096, .f32⟩ : BufTy).Contents (Elt F) → (⟨S256x4096, .f32⟩ : BufTy).Contents (Elt F)),
    unary main_v8 main_v9 (Host.absf : (⟨S256x4096, .f32⟩ : BufTy).Contents (Elt F) → (⟨S256x4096, .f32⟩ : BufTy).Contents (Elt F)),
    nullary main_cst_2 (constant S_ .f32 0x43340000#32),
    unary main_cst_2 main_v10 (broadcastInDim S256x4096 ![] bcast_S_S256x4096 : (⟨S_, .f32⟩ : BufTy).Contents (Elt F) → (⟨S256x4096, .f32⟩ : BufTy).Contents (Elt F)),
    binary main_v1 main_v10 main_v11 (addf : (⟨S256x4096, .f32⟩ : BufTy).Contents (Elt F) → (⟨S256x4096, .f32⟩ : BufTy).Contents (Elt F) → (⟨S256x4096, .f32⟩ : BufTy).Contents (Elt F)),
    unary main_v11 main_v12 (Host.absf : (⟨S256x4096, .f32⟩ : BufTy).Contents (Elt F) → (⟨S256x4096, .f32⟩ : BufTy).Contents (Elt F)),
    nullary main_cst_3 (constant S_ .f32 0x42B40000#32),
    unary main_cst_3 main_v13 (broadcastInDim S256x4096 ![] bcast_S_S256x4096 : (⟨S_, .f32⟩ : BufTy).Contents (Elt F) → (⟨S256x4096, .f32⟩ : BufTy).Contents (Elt F)),
    binary main_v13 main_v12 main_v14 (addf : (⟨S256x4096, .f32⟩ : BufTy).Contents (Elt F) → (⟨S256x4096, .f32⟩ : BufTy).Contents (Elt F) → (⟨S256x4096, .f32⟩ : BufTy).Contents (Elt F)),
    TRef.ternary (TRef.of (T := ⟨S256x4096, .i1⟩) main_v6) (TRef.of (T := ⟨S256x4096, .f32⟩) main_v9) (TRef.of (T := ⟨S256x4096, .f32⟩) main_v14) (TRef.of (T := ⟨S256x4096, .f32⟩) main_v15) select,
    nullary main_cst_4 (constant S_ .f32 0x43340000#32),
    unary main_cst_4 main_v16 (broadcastInDim S256x4096 ![] bcast_S_S256x4096 : (⟨S_, .f32⟩ : BufTy).Contents (Elt F) → (⟨S256x4096, .f32⟩ : BufTy).Contents (Elt F)),
    binary main_v15 main_v16 main_v17 (Host.divf : (⟨S256x4096, .f32⟩ : BufTy).Contents (Elt F) → (⟨S256x4096, .f32⟩ : BufTy).Contents (Elt F) → (⟨S256x4096, .f32⟩ : BufTy).Contents (Elt F)),
    unary main_arg1 main_v18 ((extractStridedSlice S256x8192x1 ![0, 0, 1] · slices_S256x8192x2_S256x8192x1_0_0_1) : (⟨S256x8192x2, .i32⟩ : BufTy).Contents (Elt F) → (⟨S256x8192x1, .i32⟩ : BufTy).Contents (Elt F)),
    reshape main_v18 main_v19 rfl shapeCasts_S256x8192x1_S256x8192,
    nullary main_v20 (iotaInDim S256 32 0),
    unary main_v20 main_v21 (broadcastInDim S256x1 ![0] bcast_S256_S256x1_0 : (⟨S256, .i32⟩ : BufTy).Contents (Elt F) → (⟨S256x1, .i32⟩ : BufTy).Contents (Elt F)),
    nullary main_c (constantI S_ 32 4096#32),
    unary main_c main_v22 (broadcastInDim S256x1 ![] bcast_S_S256x1 : (⟨S_, .i32⟩ : BufTy).Contents (Elt F) → (⟨S256x1, .i32⟩ : BufTy).Contents (Elt F)),
    binary main_v21 main_v22 main_v23 (muli : (⟨S256x1, .i32⟩ : BufTy).Contents (Elt F) → (⟨S256x1, .i32⟩ : BufTy).Contents (Elt F) → (⟨S256x1, .i32⟩ : BufTy).Contents (Elt F)),
    unary main_v23 main_v24 (broadcastInDim S256x8192 ![0, 1] bcast_S256x1_S256x8192_0_1 : (⟨S256x1, .i32⟩ : BufTy).Contents (Elt F) → (⟨S256x8192, .i32⟩ : BufTy).Contents (Elt F)),
    binary main_v19 main_v24 main_v25 (addi : (⟨S256x8192, .i32⟩ : BufTy).Contents (Elt F) → (⟨S256x8192, .i32⟩ : BufTy).Contents (Elt F) → (⟨S256x8192, .i32⟩ : BufTy).Contents (Elt F)),
    reshape main_v25 main_v26 rfl shapeCasts_S256x8192_S2097152,
    nullary main_cst_5 (constant S_ .f32 0x3F800000#32),
    unary main_cst_5 main_v27 (broadcastInDim S2097152 ![] bcast_S_S2097152 : (⟨S_, .f32⟩ : BufTy).Contents (Elt F) → (⟨S2097152, .f32⟩ : BufTy).Contents (Elt F)),
    nullary main_cst_6 (constant S_ .f32 0x00000000#32),
    unary main_cst_6 main_v28 (broadcastInDim S1048576 ![] bcast_S_S1048576 : (⟨S_, .f32⟩ : BufTy).Contents (Elt F) → (⟨S1048576, .f32⟩ : BufTy).Contents (Elt F)),
    unary main_v26 main_v29 (broadcastInDim S2097152x1 ![0] bcast_S2097152_S2097152x1_0 : (⟨S2097152, .i32⟩ : BufTy).Contents (Elt F) → (⟨S2097152x1, .i32⟩ : BufTy).Contents (Elt F)),
    ternary main_v28 main_v29 main_v27 main_v30 ((fun x i u => Host.scatterAdd scatter_S1048576_S2097152x1_S2097152_n_0_0_1 x i u) : (⟨S1048576, .f32⟩ : BufTy).Contents (Elt F) → (⟨S2097152x1, .i32⟩ : BufTy).Contents (Elt F) → (⟨S2097152, .f32⟩ : BufTy).Contents (Elt F) → (⟨S1048576, .f32⟩ : BufTy).Contents (Elt F)),
    reshape main_v30 main_v31 rfl shapeCasts_S1048576_S256x4096,
    nullary main_c_7 (constantI S_ 32 4095#32),
    unary main_c_7 main_v32 (broadcastInDim S1 ![] bcast_S_S1 : (⟨S_, .i32⟩ : BufTy).Contents (Elt F) → (⟨S1, .i32⟩ : BufTy).Contents (Elt F)),
    nullary main_cst_8 (constant S_ .f32 0x00000000#32),
    unary main_cst_8 main_v33 (broadcastInDim S256 ![] bcast_S_S256 : (⟨S_, .f32⟩ : BufTy).Contents (Elt F) → (⟨S256, .f32⟩ : BufTy).Contents (Elt F)),
    ternary main_v31 main_v32 main_v33 main_v34 ((fun x i u => Host.scatter scatter_S256x4096_S1_S256_0_1_1_0 (fun _ b => b) x i u) : (⟨S256x4096, .f32⟩ : BufTy).Contents (Elt F) → (⟨S1, .i32⟩ : BufTy).Contents (Elt F) → (⟨S256, .f32⟩ : BufTy).Contents (Elt F) → (⟨S256x4096, .f32⟩ : BufTy).Contents (Elt F)),
    nullary main_cst_9 (constant S_ .f32 0x00000000#32),
    unary main_cst_9 main_v35 (broadcastInDim S256x4096 ![] bcast_S_S256x4096 : (⟨S_, .f32⟩ : BufTy).Contents (Elt F) → (⟨S256x4096, .f32⟩ : BufTy).Contents (Elt F)),
    binary main_v34 main_v35 main_v36 (cmpf .ogt : (⟨S256x4096, .f32⟩ : BufTy).Contents (Elt F) → (⟨S256x4096, .f32⟩ : BufTy).Contents (Elt F) → (⟨S256x4096, .i1⟩ : BufTy).Contents (Elt F)),
    unary main_v36 main_v37 (uitofp .f32 : (⟨S256x4096, .i1⟩ : BufTy).Contents (Elt F) → (⟨S256x4096, .f32⟩ : BufTy).Contents (Elt F)),
    unary main_arg0 main_v38 ((extractStridedSlice S256x4096x1 ![0, 0, 4] · slices_S256x4096x5_S256x4096x1_0_0_4) : (⟨S256x4096x5, .f32⟩ : BufTy).Contents (Elt F) → (⟨S256x4096x1, .f32⟩ : BufTy).Contents (Elt F)),
    reshape main_v38 main_v39 rfl shapeCasts_S256x4096x1_S256x4096,
    unary main_v39 main_v40 (fptosi 32 : (⟨S256x4096, .f32⟩ : BufTy).Contents (Elt F) → (⟨S256x4096, .i32⟩ : BufTy).Contents (Elt F)),
    nullary main_c_10 (constantI S_ 32 0#32),
    unary main_c_10 main_v41 (broadcastInDim S256x4096 ![] bcast_S_S256x4096 : (⟨S_, .i32⟩ : BufTy).Contents (Elt F) → (⟨S256x4096, .i32⟩ : BufTy).Contents (Elt F)),
    binary main_v40 main_v41 main_v42 (cmpi .slt : (⟨S256x4096, .i32⟩ : BufTy).Contents (Elt F) → (⟨S256x4096, .i32⟩ : BufTy).Contents (Elt F) → (⟨S256x4096, .i1⟩ : BufTy).Contents (Elt F)),
    nullary main_c_11 (constantI S_ 32 512#32),
    unary main_c_11 main_v43 (broadcastInDim S256x4096 ![] bcast_S_S256x4096 : (⟨S_, .i32⟩ : BufTy).Contents (Elt F) → (⟨S256x4096, .i32⟩ : BufTy).Contents (Elt F)),
    binary main_v40 main_v43 main_v44 (addi : (⟨S256x4096, .i32⟩ : BufTy).Contents (Elt F) → (⟨S256x4096, .i32⟩ : BufTy).Contents (Elt F) → (⟨S256x4096, .i32⟩ : BufTy).Contents (Elt F)),
    ternary main_v42 main_v44 main_v40 main_v45 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)),
    unary main_v45 main_v46 (broadcastInDim S256x4096x1 ![0, 1] bcast_S256x4096_S256x4096x1_0_1 : (⟨S256x4096, .i32⟩ : BufTy).Contents (Elt F) → (⟨S256x4096x1, .i32⟩ : BufTy).Contents (Elt F)),
    binary main_arg2 main_v46 main_v47 ((fun x i => Host.gather gather_S512x122_S256x4096x1_S256x4096x122_2_0_n_n_0_2_1122 x i) : (⟨S512x122, .f32⟩ : BufTy).Contents (Elt F) → (⟨S256x4096x1, .i32⟩ : BufTy).Contents (Elt F) → (⟨S256x4096x122, .f32⟩ : BufTy).Contents (Elt F)),
    unary main_arg0 main_v48 ((extractStridedSlice S256x4096x1 ![0, 0, 1] · slices_S256x4096x5_S256x4096x1_0_0_1) : (⟨S256x4096x5, .f32⟩ : BufTy).Contents (Elt F) → (⟨S256x4096x1, .f32⟩ : BufTy).Contents (Elt F)),
    unary main_v4 main_v49 (broadcastInDim S256x4096x1 ![0, 1] bcast_S256x4096_S256x4096x1_0_1 : (⟨S256x4096, .f32⟩ : BufTy).Contents (Elt F) → (⟨S256x4096x1, .f32⟩ : BufTy).Contents (Elt F)),
    unary main_v17 main_v50 (broadcastInDim S256x4096x1 ![0, 1] bcast_S256x4096_S256x4096x1_0_1 : (⟨S256x4096, .f32⟩ : BufTy).Contents (Elt F) → (⟨S256x4096x1, .f32⟩ : BufTy).Contents (Elt F)),
    unary main_arg0 main_v51 ((extractStridedSlice S256x4096x1 ![0, 0, 3] · slices_S256x4096x5_S256x4096x1_0_0_3) : (⟨S256x4096x5, .f32⟩ : BufTy).Contents (Elt F) → (⟨S256x4096x1, .f32⟩ : BufTy).Contents (Elt F)),
    unary main_v34 main_v52 (broadcastInDim S256x4096x1 ![0, 1] bcast_S256x4096_S256x4096x1_0_1 : (⟨S256x4096, .f32⟩ : BufTy).Contents (Elt F) → (⟨S256x4096x1, .f32⟩ : BufTy).Contents (Elt F)),
    unary main_v37 main_v53 (broadcastInDim S256x4096x1 ![0, 1] bcast_S256x4096_S256x4096x1_0_1 : (⟨S256x4096, .f32⟩ : BufTy).Contents (Elt F) → (⟨S256x4096x1, .f32⟩ : BufTy).Contents (Elt F)),
    nary ![main_v48, main_v49, main_v50, main_v51, main_v52, main_v53, main_v47] main_v54 (fun u => concatenate S256x4096x128 2 [⟨S256x4096x1, u 0⟩, ⟨S256x4096x1, u 1⟩, ⟨S256x4096x1, u 2⟩, ⟨S256x4096x1, u 3⟩, ⟨S256x4096x1, u 4⟩, ⟨S256x4096x1, u 5⟩, ⟨S256x4096x122, u 6⟩] concatenates_S256x4096x1_S256x4096x1_S256x4096x1_S256x4096x1_S256x4096x1_S256x4096x1_S256x4096x122_S256x4096x128_d2) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., ternary_bufs_sub .., nullary_bufs_sub .., unary_bufs_sub .., binary_bufs_sub .., unary_bufs_sub .., reshape_bufs_sub .., nullary_bufs_sub .., unary_bufs_sub .., nullary_bufs_sub .., unary_bufs_sub .., binary_bufs_sub .., unary_bufs_sub .., binary_bufs_sub .., reshape_bufs_sub .., nullary_bufs_sub .., unary_bufs_sub .., nullary_bufs_sub .., unary_bufs_sub .., unary_bufs_sub .., ternary_bufs_sub .., reshape_bufs_sub .., nullary_bufs_sub .., unary_bufs_sub .., nullary_bufs_sub .., unary_bufs_sub .., ternary_bufs_sub .., nullary_bufs_sub .., unary_bufs_sub .., binary_bufs_sub .., unary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., unary_bufs_sub .., nary_bufs_sub ..⟩

variable (m : (ℓ : Loc nD τ sig) → Buf (Elt F) ℓ)

/-- What the line leaves in each of the seven arrays the result joins: the stage that wrote it. -/
theorem at_v48 (c : Dev nD) : after ops (launchContents m c) (Proc.devRef .tc main_v48) = val_main_v48 (F := F) (m ((c.tc : Thread nD τ).loc main_arg0)) := by
  after_results_simp <;> rfl
theorem at_v49 (c : Dev nD) : after ops (launchContents m c) (Proc.devRef .tc main_v49) = val_main_v49 (F := F) (m ((c.tc : Thread nD τ).loc main_arg0)) := by
  after_results_simp <;> rfl
theorem at_v50 (c : Dev nD) : after ops (launchContents m c) (Proc.devRef .tc main_v50) = val_main_v50 (F := F) (m ((c.tc : Thread nD τ).loc main_arg0)) := by
  after_results_simp <;> rfl
theorem at_v51 (c : Dev nD) : after ops (launchContents m c) (Proc.devRef .tc main_v51) = val_main_v51 (F := F) (m ((c.tc : Thread nD τ).loc main_arg0)) := by
  after_results_simp <;> rfl
theorem at_v52 (c : Dev nD) : after ops (launchContents m c) (Proc.devRef .tc main_v52) = val_main_v52 (F := F) (m ((c.tc : Thread nD τ).loc main_arg1)) := by
  after_results_simp <;> rfl
theorem at_v53 (c : Dev nD) : after ops (launchContents m c) (Proc.devRef .tc main_v53) = val_main_v53 (F := F) (m ((c.tc : Thread nD τ).loc main_arg1)) := by
  after_results_simp <;> rfl
theorem at_v47 (c : Dev nD) : after ops (launchContents m c) (Proc.devRef .tc main_v47) = val_main_v47 (F := F) (m ((c.tc : Thread nD τ).loc main_arg0)) (m ((c.tc : Thread nD τ).loc main_arg2)) := by
  after_results_simp <;> rfl

/-- What the line leaves in the result: the last stage of the three argument arrays. -/
theorem at_v54 (c : Dev nD) : after ops (launchContents m c) (Proc.devRef .tc main_v54)
    = val_main_v54 (F := F) (m ((c.tc : Thread nD τ).loc main_arg0)) (m ((c.tc : Thread nD τ).loc main_arg1)) (m ((c.tc : Thread nD τ).loc main_arg2)) := by
  refine (after_last_nary7 (ops (F := F)) 68 _ _ _ rfl (by decide) (by decide) (by decide) (by decide) (by decide) (by decide) (by decide) (launchContents m c)).trans ?_
  rw [at_v48, at_v49, at_v50, at_v51, at_v52, at_v53, at_v47]
  unfold val_main_v54
  -- the seven joined arrays are the same on both sides: name them, so that nothing of them is opened
  generalize val_main_v48 (F := F) (m ((c.tc : Thread nD τ).loc main_arg0)) = a0
  generalize val_main_v49 (F := F) (m ((c.tc : Thread nD τ).loc main_arg0)) = a1
  generalize val_main_v50 (F := F) (m ((c.tc : Thread nD τ).loc main_arg0)) = a2
  generalize val_main_v51 (F := F) (m ((c.tc : Thread nD τ).loc main_arg0)) = a3
  generalize val_main_v52 (F := F) (m ((c.tc : Thread nD τ).loc main_arg1)) = a4
  generalize val_main_v53 (F := F) (m ((c.tc : Thread nD τ).loc main_arg1)) = a5
  generalize val_main_v47 (F := F) (m ((c.tc : Thread nD τ).loc main_arg0)) (m ((c.tc : Thread nD τ).loc main_arg2)) = a6
  rfl

/-- On every device, from any memory with zero counters: every weakly fair execution of the program terminates with the
    result at the last stage of the argument arrays and the argument arrays unchanged. -/
theorem run (ρ : Dev nD → PrngReg) :
    θ_run defs (onTc (τ := τ) (main (F := F))) ⟨m, fun _ => 0, ρ⟩ fun r => ∀ c : Dev nD,
      r.2.mem ((c.tc : Thread nD τ).loc main_v54) = val_main_v54 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v54).trans (at_v54 m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunValue

end
-- ==== Proof.LibSlabGather.lean ====
/-
  ROWS OF A TABLE GATHERED AT A SLAB OR A CUBE OF START INDICES, READ AT AN ELEMENT.

  x[idx] for a table x of N rows of D numbers and an integer array idx of shape [A, B] (or [A, B, C]), which the
  lowering gives a trailing unit axis: the result's element (a, b, k) is the table's row "idx (a, b, 0) read signed and
  clamped into [0, N - 1]", column k — whatever the integers are.
-/
import Idealize.ShloMosaic.PureOps.Ideal
import Idealize.ShloMosaic.Lib.ValueIdx

noncomputable section

namespace Cert.Lib

open Idealize.ShloMosaic Idealize.ShloMosaic.ValueIdx

variable {α : Type}

/-- Dimension numbers of a gather of rows of an [N, D] table at an array of start indices with a trailing unit axis. -/
abbrev slabGatherDims (N A B D : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

theorem slabGather_siIdx {N A B D : Nat} (wf) (a : Fin A) (b : Fin B) (k : Fin D) (h) :
    (slabGatherDims N A B D wf).siIdx (ix3 a b k) ⟨List.idxOf (0 : Fin 2) (slabGatherDims N A B D wf).startIndexMap, h⟩
      = ix3 a b (0 : Fin 1) := by
  funext b; refine Fin.ext ?_
  match b with
  | ⟨0, _⟩ => rfl
  | ⟨1, _⟩ => rfl
  | ⟨2, _⟩ => rfl

theorem slabGather_coord0 {N A B D w : Nat} (wf) (idx : IVec ⟨3, ![A, B, 1]⟩ w) (a : Fin A) (b : Fin B) (k : Fin D) :
    ((slabGatherDims N A B D wf).operandIdx (ix3 a b k) idx (0 : Fin 2)).val
      = min (idx (ix3 a b (0 : Fin 1))).toInt.toNat (N - 1) := by
  show (slabGatherDims N A B D wf).start (ix3 a b k) idx (0 : Fin 2) + (slabGatherDims N A B D wf).batchCoord (ix3 a b k) (0 : Fin 2)
    + (slabGatherDims N A B D wf).offCoord (ix3 a b k) (0 : Fin 2) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (slabGatherDims N A B D wf).startIndexMap from List.mem_singleton.mpr rfl)]
  rw [slabGather_siIdx]
  rfl

theorem slabGather_coord1 {N A B D w : Nat} (wf) (idx : IVec ⟨3, ![A, B, 1]⟩ w) (a : Fin A) (b : Fin B) (k : Fin D) :
    ((slabGatherDims N A B D wf).operandIdx (ix3 a b k) idx (1 : Fin 2)).val = k.val := by
  show (slabGatherDims N A B D wf).start (ix3 a b k) idx (1 : Fin 2) + (slabGatherDims N A B D wf).batchCoord (ix3 a b k) (1 : Fin 2)
    + (slabGatherDims N A B D wf).offCoord (ix3 a b k) (1 : Fin 2) = _
  rw [GatherDims.batchCoord_eq_zero _ _ _ List.not_mem_nil]
  have h1 : (1 : Fin 2) ∉ (slabGatherDims N A B D wf).startIndexMap := by
    intro h; exact absurd (List.mem_singleton.mp h) (by decide : (1 : Fin 2) ≠ 0)
  unfold GatherDims.start
  rw [dif_neg h1]
  have hk : (1 : Fin 2) ∈ (slabGatherDims N A B D wf).sKept :=
    (GatherDims.mem_sKept _ _).mpr
      ⟨fun h => absurd (List.mem_singleton.mp h) (by decide : (1 : Fin 2) ≠ 0), List.not_mem_nil⟩
  unfold GatherDims.offCoord
  rw [dif_pos hk]
  simp only [Nat.zero_add, Nat.add_zero]
  rfl

/-- The gather read at an element: the table at row "start index there, read signed and clamped into [0, N - 1]", column k. -/
theorem slabGather_apply {N A B D w : Nat} (hN : 0 < N) (wf)
    (x : (⟨2, ![N, D]⟩ : Shape).Idx → α) (idx : IVec ⟨3, ![A, B, 1]⟩ w) (a : Fin A) (b : Fin B) (k : Fin D) :
    Host.gather (slabGatherDims N A B D wf) x idx (ix3 a b k)
      = x (ix2 ⟨min (idx (ix3 a b (0 : Fin 1))).toInt.toNat (N - 1), by omega⟩ k) := by
  unfold Host.gather
  congr 1
  funext ax
  refine Fin.ext ?_
  match ax with
  | ⟨0, _⟩ => exact slabGather_coord0 wf idx a b k
  | ⟨1, _⟩ => exact slabGather_coord1 wf idx a b k

/-- Dimension numbers of a gather of rows of an [N, D] table at an array of start indices with a trailing unit axis. -/
abbrev cubeGatherDims (N A B C D : Nat)
    (wf : GatherDims.WF ⟨2, ![N, D]⟩ ⟨4, ![A, B, C, 1]⟩ ⟨4, ![A, B, C, D]⟩ [3] [0] [] [0] [] 3 ![1, D]) :
    GatherDims ⟨2, ![N, D]⟩ ⟨4, ![A, B, C, 1]⟩ ⟨4, ![A, B, C, D]⟩ where
  offsetDims := [3]
  collapsedSliceDims := [0]
  operandBatchingDims := []
  startIndicesBatchingDims := []
  startIndexMap := [0]
  indexVectorDim := 3
  sliceSizes := ![1, D]
  wf := wf

theorem cubeGather_siIdx {N A B C D : Nat} (wf) (a : Fin A) (b : Fin B) (c : Fin C) (k : Fin D) (h) :
    (cubeGatherDims N A B C D wf).siIdx (ix4 a b c k) ⟨List.idxOf (0 : Fin 2) (cubeGatherDims N A B C D wf).startIndexMap, h⟩
      = ix4 a b c (0 : Fin 1) := by
  funext b; refine Fin.ext ?_
  match b with
  | ⟨0, _⟩ => rfl
  | ⟨1, _⟩ => rfl
  | ⟨2, _⟩ => rfl
  | ⟨3, _⟩ => rfl

theorem cubeGather_coord0 {N A B C D w : Nat} (wf) (idx : IVec ⟨4, ![A, B, C, 1]⟩ w) (a : Fin A) (b : Fin B) (c : Fin C) (k : Fin D) :
    ((cubeGatherDims N A B C D wf).operandIdx (ix4 a b c k) idx (0 : Fin 2)).val
      = min (idx (ix4 a b c (0 : Fin 1))).toInt.toNat (N - 1) := by
  show (cubeGatherDims N A B C D wf).start (ix4 a b c k) idx (0 : Fin 2) + (cubeGatherDims N A B C D wf).batchCoord (ix4 a b c k) (0 : Fin 2)
    + (cubeGatherDims N A B C D wf).offCoord (ix4 a b c k) (0 : Fin 2) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (cubeGatherDims N A B C D wf).startIndexMap from List.mem_singleton.mpr rfl)]
  rw [cubeGather_siIdx]
  rfl

theorem cubeGather_coord1 {N A B C D w : Nat} (wf) (idx : IVec ⟨4, ![A, B, C, 1]⟩ w) (a : Fin A) (b : Fin B) (c : Fin C) (k : Fin D) :
    ((cubeGatherDims N A B C D wf).operandIdx (ix4 a b c k) idx (1 : Fin 2)).val = k.val := by
  show (cubeGatherDims N A B C D wf).start (ix4 a b c k) idx (1 : Fin 2) + (cubeGatherDims N A B C D wf).batchCoord (ix4 a b c k) (1 : Fin 2)
    + (cubeGatherDims N A B C D wf).offCoord (ix4 a b c k) (1 : Fin 2) = _
  rw [GatherDims.batchCoord_eq_zero _ _ _ List.not_mem_nil]
  have h1 : (1 : Fin 2) ∉ (cubeGatherDims N A B C D wf).startIndexMap := by
    intro h; exact absurd (List.mem_singleton.mp h) (by decide : (1 : Fin 2) ≠ 0)
  unfold GatherDims.start
  rw [dif_neg h1]
  have hk : (1 : Fin 2) ∈ (cubeGatherDims N A B C D wf).sKept :=
    (GatherDims.mem_sKept _ _).mpr
      ⟨fun h => absurd (List.mem_singleton.mp h) (by decide : (1 : Fin 2) ≠ 0), List.not_mem_nil⟩
  unfold GatherDims.offCoord
  rw [dif_pos hk]
  simp only [Nat.zero_add, Nat.add_zero]
  rfl

/-- The gather read at an element: the table at row "start index there, read signed and clamped into [0, N - 1]", column k. -/
theorem cubeGather_apply {N A B C D w : Nat} (hN : 0 < N) (wf)
    (x : (⟨2, ![N, D]⟩ : Shape).Idx → α) (idx : IVec ⟨4, ![A, B, C, 1]⟩ w) (a : Fin A) (b : Fin B) (c : Fin C) (k : Fin D) :
    Host.gather (cubeGatherDims N A B C D wf) x idx (ix4 a b c k)
      = x (ix2 ⟨min (idx (ix4 a b c (0 : Fin 1))).toInt.toNat (N - 1), by omega⟩ k) := by
  unfold Host.gather
  congr 1
  funext ax
  refine Fin.ext ?_
  match ax with
  | ⟨0, _⟩ => exact cubeGather_coord0 wf idx a b c k
  | ⟨1, _⟩ => exact cubeGather_coord1 wf idx a b c k

end Cert.Lib

end
-- ==== Proof.RefValue.lean ====
/-
  THE REFERENCE COMPUTES THE SPECIFIED ROWS.

  The reference program's last operation joins seven arrays along the last axis: four columns read off the entities
  (column 1, the two functions of the azimuth in column 2, column 3), the fact counts, the indicator "count positive",
  and the 122 numbers of the table row an entity's type selects. Read at batch b, entity n, position j, the join is
  the piece that position j falls in; each piece, read through the slices, reshapes and broadcasts that produce it, is
  a function of one entity entry, one count, or one table entry. These are the entries of the specified row.

  The table row: the reference reads the type as a signed integer v, replaces it by v + 512 when v is negative, and
  the lookup clamps the result into [0, 511]. For a type in range v is not negative and below 512, so the row is v.
-/
import proofs.«103184_j28845000360091_2_alg».proof.Proof.RefReadP
import proofs.«103184_j28845000360091_2_alg».proof.Proof.Spec
import proofs.«103184_j28845000360091_2_alg».proof.Proof.LibSlabGather
import Idealize.ShloMosaic.Lib.ValueIdx
import Idealize.ShloMosaic.Lib.Pipeline.Value
import Idealize.ShloMosaic.Lib.KernelVsHost

noncomputable section

namespace Cert.ReferenceIdeal.RefValue

open Cert.ReferenceIdeal Cert.ReferenceIdeal.Gen Cert.ReferenceIdeal.ReadP
open Idealize.ShloMosaic Idealize.ShloMosaic.ValueIdx

/-! ## The join of the seven pieces, read at an index -/

section Join
variable {α : Type}

/-- Off the joined axis a piece's index has the result index's coordinates. -/
theorem off_axis {m : Nat} (b : Fin 256) (n : Fin 4096) (j : Fin 128) (k : Fin m) :
    ∀ c : Fin 3, c ≠ (2 : Fin 3) →
      ((ix3 b n k : (⟨3, ![256, 4096, m]⟩ : Shape).Idx) c).val = ((ix3 b n j : S256x4096x128.Idx) c).val := by
  intro c hc
  match c with
  | ⟨0, _⟩ => rfl
  | ⟨1, _⟩ => rfl
  | ⟨2, _⟩ => exact absurd rfl hc

/-- The seven pieces with their shapes, in order. -/
abbrev pieces7 (p0 p1 p2 p3 p4 p5 : S256x4096x1.Idx → α) (p6 : S256x4096x122.Idx → α) : List ((s : Shape) × (s.Idx → α)) :=
  [⟨S256x4096x1, p0⟩, ⟨S256x4096x1, p1⟩, ⟨S256x4096x1, p2⟩, ⟨S256x4096x1, p3⟩, ⟨S256x4096x1, p4⟩, ⟨S256x4096x1, p5⟩, ⟨S256x4096x122, p6⟩]

/-- Six arrays of one column and one of 122 columns joined along the last axis: position j < 6 is piece j's only
    column, position j ≥ 6 is column j - 6 of the last piece. -/
theorem concat7_at (p0 p1 p2 p3 p4 p5 : S256x4096x1.Idx → α) (p6 : S256x4096x122.Idx → α)
    (h : Shape.Concatenates [S256x4096x1, S256x4096x1, S256x4096x1, S256x4096x1, S256x4096x1, S256x4096x1, S256x4096x122] S256x4096x128 2)
    (b : Fin 256) (n : Fin 4096) (j : Fin 128) :
    concatenate S256x4096x128 2 (pieces7 p0 p1 p2 p3 p4 p5 p6) h (ix3 b n j)
      = if j.val = 0 then p0 (ix3 b n (0 : Fin 1))
        else if j.val = 1 then p1 (ix3 b n (0 : Fin 1))
        else if j.val = 2 then p2 (ix3 b n (0 : Fin 1))
        else if j.val = 3 then p3 (ix3 b n (0 : Fin 1))
        else if j.val = 4 then p4 (ix3 b n (0 : Fin 1))
        else if j.val = 5 then p5 (ix3 b n (0 : Fin 1))
        else p6 (ix3 b n (⟨j.val - 6, by have := j.isLt; omega⟩ : Fin 122)) := by
  split_ifs with h0 h1 h2 h3 h4 h5
  · exact concatenate_apply_piece (t := S256x4096x128) 2 (pieces7 p0 p1 p2 p3 p4 p5 p6) h (ix3 b n j) 0
      (by show (0 : Nat) < 7; omega) S256x4096x1 p0 rfl rfl 0 rfl (ix3 b n (0 : Fin 1))
      (off_axis b n j 0) (by show 0 + 0 = j.val; omega)
  · exact concatenate_apply_piece (t := S256x4096x128) 2 (pieces7 p0 p1 p2 p3 p4 p5 p6) h (ix3 b n j) 1
      (by show (1 : Nat) < 7; omega) S256x4096x1 p1 rfl rfl 1 rfl (ix3 b n (0 : Fin 1))
      (off_axis b n j 0) (by show 1 + 0 = j.val; omega)
  · exact concatenate_apply_piece (t := S256x4096x128) 2 (pieces7 p0 p1 p2 p3 p4 p5 p6) h (ix3 b n j) 2
      (by show (2 : Nat) < 7; omega) S256x4096x1 p2 rfl rfl 2 rfl (ix3 b n (0 : Fin 1))
      (off_axis b n j 0) (by show 2 + 0 = j.val; omega)
  · exact concatenate_apply_piece (t := S256x4096x128) 2 (pieces7 p0 p1 p2 p3 p4 p5 p6) h (ix3 b n j) 3
      (by show (3 : Nat) < 7; omega) S256x4096x1 p3 rfl rfl 3 rfl (ix3 b n (0 : Fin 1))
      (off_axis b n j 0) (by show 3 + 0 = j.val; omega)
  · exact concatenate_apply_piece (t := S256x4096x128) 2 (pieces7 p0 p1 p2 p3 p4 p5 p6) h (ix3 b n j) 4
      (by show (4 : Nat) < 7; omega) S256x4096x1 p4 rfl rfl 4 rfl (ix3 b n (0 : Fin 1))
      (off_axis b n j 0) (by show 4 + 0 = j.val; omega)
  · exact concatenate_apply_piece (t := S256x4096x128) 2 (pieces7 p0 p1 p2 p3 p4 p5 p6) h (ix3 b n j) 5
      (by show (5 : Nat) < 7; omega) S256x4096x1 p5 rfl rfl 5 rfl (ix3 b n (0 : Fin 1))
      (off_axis b n j 0) (by show 5 + 0 = j.val; omega)
  · exact concatenate_apply_piece (t := S256x4096x128) 2 (pieces7 p0 p1 p2 p3 p4 p5 p6) h (ix3 b n j) 6
      (by show (6 : Nat) < 7; omega) S256x4096x122 p6 rfl rfl 6 rfl (ix3 b n (⟨j.val - 6, by have := j.isLt; omega⟩ : Fin 122))
      (off_axis b n j _) (by show 6 + (j.val - 6) = j.val; omega)

end Join

/-! ## Where the layout operations read: the composed index functions at coordinates -/

/-- A slice of one column c of the entities reads entry (b, n, c). -/
theorem idx_v0_ix (b : Fin 256) (n : Fin 4096) (k : Fin 1) : idx_main_v0 (ix3 b n k) = ix3 b n (2 : Fin 5) := by
  funext a
  match a with
  | ⟨0, _⟩ => rfl
  | ⟨1, _⟩ => rfl
  | ⟨2, _⟩ => exact Fin.ext (by show 2 + k.val = 2; omega)

theorem idx_v38_ix (b : Fin 256) (n : Fin 4096) (k : Fin 1) : idx_main_v38 (ix3 b n k) = ix3 b n (4 : Fin 5) := by
  funext a
  match a with
  | ⟨0, _⟩ => rfl
  | ⟨1, _⟩ => rfl
  | ⟨2, _⟩ => exact Fin.ext (by show 4 + k.val = 4; omega)

theorem idx_v48_ix (b : Fin 256) (n : Fin 4096) (k : Fin 1) : idx_main_v48 (ix3 b n k) = ix3 b n (1 : Fin 5) := by
  funext a
  match a with
  | ⟨0, _⟩ => rfl
  | ⟨1, _⟩ => rfl
  | ⟨2, _⟩ => exact Fin.ext (by show 1 + k.val = 1; omega)

theorem idx_v51_ix (b : Fin 256) (n : Fin 4096) (k : Fin 1) : idx_main_v51 (ix3 b n k) = ix3 b n (3 : Fin 5) := by
  funext a
  match a with
  | ⟨0, _⟩ => rfl
  | ⟨1, _⟩ => rfl
  | ⟨2, _⟩ => exact Fin.ext (by show 3 + k.val = 3; omega)

/-- Dropping the unit axis: entry (b, n) of the reshaped array is entry (b, n, 0). -/
theorem idx_v1_ix (b : Fin 256) (n : Fin 4096) : idx_main_v1 (ix2 b n) = ix3 b n (0 : Fin 1) := by
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

theorem idx_v39_ix (b : Fin 256) (n : Fin 4096) : idx_main_v39 (ix2 b n) = ix3 b n (0 : Fin 1) := by
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

/-- Adding a unit axis: entry (b, n, 0) of the broadcast array is entry (b, n). -/
theorem idx_v46_ix (b : Fin 256) (n : Fin 4096) (k : Fin 1) : idx_main_v46 (ix3 b n k) = ix2 b n := by
  funext a
  match a with
  | ⟨0, _⟩ => rfl
  | ⟨1, _⟩ => rfl

theorem idx_v49_ix (b : Fin 256) (n : Fin 4096) (k : Fin 1) : idx_main_v49 (ix3 b n k) = ix2 b n := by
  funext a
  match a with
  | ⟨0, _⟩ => rfl
  | ⟨1, _⟩ => rfl

theorem idx_v50_ix (b : Fin 256) (n : Fin 4096) (k : Fin 1) : idx_main_v50 (ix3 b n k) = ix2 b n := by
  funext a
  match a with
  | ⟨0, _⟩ => rfl
  | ⟨1, _⟩ => rfl

theorem idx_v52_ix (b : Fin 256) (n : Fin 4096) (k : Fin 1) : idx_main_v52 (ix3 b n k) = ix2 b n := by
  funext a
  match a with
  | ⟨0, _⟩ => rfl
  | ⟨1, _⟩ => rfl

theorem idx_v53_ix (b : Fin 256) (n : Fin 4096) (k : Fin 1) : idx_main_v53 (ix3 b n k) = ix2 b n := by
  funext a
  match a with
  | ⟨0, _⟩ => rfl
  | ⟨1, _⟩ => rfl

/-! ## The pieces, read at (b, n) -/

section Pieces
variable (x0 : (⟨S256x4096x5, .f32⟩ : BufTy).Contents (Elt Ideal))
variable (x1 : (⟨S256x8192x2, .i32⟩ : BufTy).Contents (Elt Ideal))
variable (x2 : (⟨S512x122, .f32⟩ : BufTy).Contents (Elt Ideal))

/-- The azimuth array at (b, n) is column 2 of the entity. -/
theorem az_at (b : Fin 256) (n : Fin 4096) :
    val_main_v1 (F := Ideal) x0 (ix2 b n) = x0 (ix3 b n (2 : Fin 5)) := by
  rw [val_main_v1_apply, idx_v1_ix, val_main_v0_apply, idx_v0_ix]

/-- The type array at (b, n) is column 4 of the entity. -/
theorem ty_at (b : Fin 256) (n : Fin 4096) :
    val_main_v39 (F := Ideal) x0 (ix2 b n) = x0 (ix3 b n (4 : Fin 5)) := by
  rw [val_main_v39_apply, idx_v39_ix, val_main_v38_apply, idx_v38_ix]

/-- Piece 0: column 1 of the entity. -/
theorem piece0_at (b : Fin 256) (n : Fin 4096) (k : Fin 1) :
    val_main_v48 (F := Ideal) x0 (ix3 b n k) = x0 (ix3 b n (1 : Fin 5)) := by
  rw [val_main_v48_apply, idx_v48_ix]

/-- Piece 3: column 3 of the entity. -/
theorem piece3_at (b : Fin 256) (n : Fin 4096) (k : Fin 1) :
    val_main_v51 (F := Ideal) x0 (ix3 b n k) = x0 (ix3 b n (3 : Fin 5)) := by
  rw [val_main_v51_apply, idx_v51_ix]

/-- Piece 1: |az| / 180. -/
theorem piece1_at (b : Fin 256) (n : Fin 4096) (k : Fin 1) :
    val_main_v49 (F := Ideal) x0 (ix3 b n k) = Cert.Encoder.north (x0 (ix3 b n (2 : Fin 5))) := by
  rw [val_main_v49_apply, idx_v49_ix, val_main_v4_apply, val_main_v2_apply, az_at, val_main_v3_apply,
    val_main_cst_apply]
  rfl

/-- Piece 2: (|90 - az| if az ≥ -90, else 90 + |az + 180|) / 180. -/
theorem piece2_at (b : Fin 256) (n : Fin 4096) (k : Fin 1) :
    val_main_v50 (F := Ideal) x0 (ix3 b n k) = Cert.Encoder.east (x0 (ix3 b n (2 : Fin 5))) := by
  rw [val_main_v50_apply, idx_v50_ix, val_main_v17_apply, val_main_v15_apply, val_main_v6_apply, val_main_v9_apply,
    val_main_v14_apply, val_main_v8_apply, val_main_v12_apply, val_main_v11_apply, az_at,
    val_main_v5_apply, val_main_cst_0_apply, val_main_v7_apply, val_main_cst_1_apply,
    val_main_v10_apply, val_main_cst_2_apply, val_main_v13_apply, val_main_cst_3_apply,
    val_main_v16_apply, val_main_cst_4_apply]
  rfl

/-- Piece 4: the count. -/
theorem piece4_at (b : Fin 256) (n : Fin 4096) (k : Fin 1) :
    val_main_v52 (F := Ideal) x1 (ix3 b n k) = val_main_v34 (F := Ideal) x1 (ix2 b n) := by
  rw [val_main_v52_apply, idx_v52_ix]

/-- A bit read as an unsigned number is the bit widened to a word and read as a signed number. -/
theorem uitofp_bit (c : BitVec 1) :
    (FloatOps.uitofp (F := Ideal) .f32 c) = FloatOps.sitofp (F := Ideal) .f32 (c.setWidth 32) := by
  show (((c.toNat : ℝ)) : EReal) = ((((c.setWidth 32).toInt : ℝ)) : EReal)
  rw [toInt_setWidth_bit]
  norm_cast

/-- Piece 5: 1 if the count is positive, else 0. -/
theorem piece5_at (b : Fin 256) (n : Fin 4096) (k : Fin 1) :
    val_main_v53 (F := Ideal) x1 (ix3 b n k) = Cert.Encoder.seen (val_main_v34 (F := Ideal) x1 (ix2 b n)) := by
  rw [val_main_v53_apply, idx_v53_ix, val_main_v37_apply, val_main_v36_apply, val_main_v35_apply,
    val_main_cst_9_apply, uitofp_bit]
  rfl

/-- The row index the reference hands to the lookup, at (b, n): the type as a signed integer v, or v + 512 when v is
    negative. -/
theorem rowidx_at (b : Fin 256) (n : Fin 4096) (k : Fin 1) :
    val_main_v46 (F := Ideal) x0 (ix3 b n k)
      = Scalar.select (IntOp.cmpi .slt (Cert.Encoder.typeIdx (x0 (ix3 b n (4 : Fin 5)))) 0#32)
          (IntOp.addi (Cert.Encoder.typeIdx (x0 (ix3 b n (4 : Fin 5)))) 512#32)
          (Cert.Encoder.typeIdx (x0 (ix3 b n (4 : Fin 5)))) := by
  rw [val_main_v46_apply, idx_v46_ix, val_main_v45_apply, val_main_v42_apply, val_main_v44_apply, val_main_v40_apply,
    ty_at, val_main_v41_apply, val_main_c_10_apply, val_main_v43_apply, val_main_c_11_apply]
  rfl

/-- For an integer that is not negative the reference's adjusted row index is the integer itself. -/
theorem select_nonneg (v : BitVec 32) (h0 : 0 ≤ v.toInt) :
    Scalar.select (IntOp.cmpi .slt v 0#32) (IntOp.addi v 512#32) v = v := by
  have hs : v.slt 0#32 = false := by
    rw [BitVec.slt_eq_decide]
    simp only [BitVec.toInt_zero, decide_eq_false_iff_not, not_lt]
    exact h0
  show (if BitVec.ofBool (v.slt 0#32) = 1 then IntOp.addi v 512#32 else v) = v
  rw [hs]
  rfl

/-- The record of the lookup's dimension numbers is the one of a lookup of rows of a [512, 122] table at a
    [256, 4096, 1] array of row numbers. -/
theorem gatherDims_eq :
    gather_S512x122_S256x4096x1_S256x4096x122_2_0_n_n_0_2_1122
      = Cert.Lib.slabGatherDims 512 256 4096 122 gather_S512x122_S256x4096x1_S256x4096x122_2_0_n_n_0_2_1122_wf := rfl

/-- Piece 6: the table row of the entity's type, for a type in range. -/
theorem piece6_at (hin : Cert.Encoder.TypesInRange x0) (b : Fin 256) (n : Fin 4096) (q : Fin 122) :
    val_main_v47 (F := Ideal) x0 x2 (ix3 b n q)
      = x2 (ix2 (Cert.Encoder.row (Cert.Encoder.typeIdx (x0 (ix3 b n (4 : Fin 5))))) q) := by
  obtain ⟨h0, h1⟩ := hin b n
  obtain ⟨hrow, hlt, hnat⟩ := Cert.Encoder.row_val_of_inRange _ h0 h1
  unfold val_main_v47
  rw [gatherDims_eq]
  rw [Cert.Lib.slabGather_apply (by decide : 0 < 512)]
  congr 1
  funext a
  match a with
  | ⟨0, _⟩ =>
    refine Fin.ext ?_
    show min (val_main_v46 (F := Ideal) x0 (ix3 b n (0 : Fin 1))).toInt.toNat (512 - 1)
      = (Cert.Encoder.row (Cert.Encoder.typeIdx (x0 (ix3 b n (4 : Fin 5))))).val
    rw [rowidx_at, select_nonneg _ h0, hrow, hnat]
    omega
  | ⟨1, _⟩ => rfl

end Pieces

/-! ## The reference's result is the specified array -/

theorem ref_is_out
    (x0 : (⟨Cert.ReferenceIdeal.S256x4096x5, .f32⟩ : BufTy).Contents (Elt Ideal))
    (x1 : (⟨Cert.ReferenceIdeal.S256x8192x2, .i32⟩ : BufTy).Contents (Elt Ideal))
    (x2 : (⟨Cert.ReferenceIdeal.S512x122, .f32⟩ : BufTy).Contents (Elt Ideal))
    (hin : Cert.Encoder.TypesInRange x0) :
    Cert.ReferenceIdeal.ReadP.val_main_v54 (F := Ideal) x0 x1 x2
      = Cert.Encoder.out x0 (Cert.ReferenceIdeal.ReadP.val_main_v34 (F := Ideal) x1) x2 := by
  funext i
  obtain ⟨b, n, j, rfl⟩ : ∃ (b : Fin 256) (n : Fin 4096) (j : Fin 128), i = ix3 b n j := ⟨i 0, i 1, i 2, eq_ix3 i⟩
  rw [Cert.Encoder.out_ix3]
  unfold val_main_v54
  rw [concat7_at]
  unfold Cert.Encoder.outAt
  rw [piece0_at, piece1_at, piece2_at, piece3_at, piece4_at, piece5_at, piece6_at x0 x2 hin]

end Cert.ReferenceIdeal.RefValue

end
-- ==== Proof.PreRange.lean ====
/-
  The precondition gives the range of the entities' types.

  The precondition is a conjunction of four facts about the three arrays: every entity entry is finite, every entry of
  the type table is finite, every entity's type (column 4 of the entity, read as a signed integer) is at least 0, and
  every such type is below 512. Each of the four is itself a conjunction over a whole array, and the claim is that the
  result is the bit 1. A conjunction of bits that is 1 has every bit 1, so the last two facts hold at every (b, n):
  the signed comparison of the integer of entity (b, n)'s column 4 with 0, and with 512, came out true. Column 4 is
  taken as the slice [0:256, 0:4096, 4:5] reshaped from [256, 4096, 1] to [256, 4096]; entry (b, n) of the reshaped
  slice is entry (b, n, 0) of the slice (same row-major position), which is entry (b, n, 4) of the entities.
-/
import proofs.«103184_j28845000360091_2_alg».proof.Pre_finite_inputs
import proofs.«103184_j28845000360091_2_alg».proof.Proof.Gen.Pre_finite_inputs
import proofs.«103184_j28845000360091_2_alg».proof.Proof.Spec
import Idealize.ShloMosaic.Lib.ReduceAll
import Idealize.ShloMosaic.Lib.ValueIdx
import Idealize.ShloMosaic.Lib.Pipeline.Value

noncomputable section

namespace Cert.Encoder.Pre

open Idealize.ShloMosaic Idealize.ShloMosaic.ValueIdx
open Cert.Pre_finite_inputs

theorem ofBool_eq_one (b : Bool) : BitVec.ofBool b = 1#1 ↔ b = true := by cases b <;> decide

theorem sge_zero (v : BitVec 32) (h : IntOp.cmpi .sge v 0#32 = 1#1) : 0 ≤ v.toInt := by
  unfold IntOp.cmpi at h
  rw [ofBool_eq_one] at h
  have h' : (0#32).toInt ≤ v.toInt := by simpa only [BitVec.sle, decide_eq_true_eq] using h
  have z : (0#32).toInt = 0 := by decide
  omega

theorem slt_512 (v : BitVec 32) (h : IntOp.cmpi .slt v 512#32 = 1#1) : v.toInt < 512 := by
  unfold IntOp.cmpi at h
  rw [ofBool_eq_one] at h
  have h' : v.toInt < (512#32).toInt := by simpa only [BitVec.slt, decide_eq_true_eq] using h
  have z : (512#32).toInt = 512 := by decide
  omega

/-- The scalar shape has one index. -/
instance : Subsingleton S_.Idx := ⟨fun a b => funext fun d => d.elim0⟩

/-- A conjunction of one-bit arrays at an index is the conjunction of the bits. -/
theorem andi_apply {s : Shape} {w : Nat} (a c : IVec s w) (i : s.Idx) : andi a c i = IntOp.andi (a i) (c i) := rfl

/-- The entities' types as integers: column 4 of the entities, as a [256, 4096] array, converted. -/
def types [Facts] (x0 : FVec Ideal S256x4096x5 .f32) : IVec S256x4096 32 :=
  fptosi 32 (shapeCast S256x4096 (extractStridedSlice S256x4096x1 ![0, 0, 4] x0 Facts.slices_S256x4096x5_S256x4096x1_0_0_4)
    Facts.shapeCasts_S256x4096x1_S256x4096)

/-- Entry (b, n) of that array is the integer of entity (b, n)'s column 4. -/
theorem types_apply [Facts] (x0 : FVec Ideal S256x4096x5 .f32) (b : Fin 256) (n : Fin 4096) :
    types x0 (ix2 b n) = Cert.Encoder.typeIdx (x0 (ix3 b n (4 : Fin 5))) := by
  show FloatOps.fptosi 32 (shapeCast S256x4096 (extractStridedSlice S256x4096x1 ![0, 0, 4] x0 Facts.slices_S256x4096x5_S256x4096x1_0_0_4)
    Facts.shapeCasts_S256x4096x1_S256x4096 (ix2 b n)) = FloatOps.fptosi 32 (x0 (ix3 b n (4 : Fin 5)))
  refine congrArg (FloatOps.fptosi 32) ?_
  -- the reshape [256, 4096, 1] → [256, 4096] keeps the row-major position: (b, n) comes from (b, n, 0)
  have e1 : ∀ y : S256x4096x1.Idx → Ideal .f32,
      shapeCast S256x4096 y Facts.shapeCasts_S256x4096x1_S256x4096 (ix2 b n) = y (ix3 b n (0 : Fin 1)) := fun y =>
    shapeCast_apply y Facts.shapeCasts_S256x4096x1_S256x4096 (ix2 b n) (ix3 b n (0 : Fin 1))
      (by rewrite [Shape.rowMajor_val_three, Shape.rowMajor_val_two]
          show (b.val * 4096 + n.val) * 1 + 0 = b.val * 4096 + n.val
          omega)
  rw [e1]
  -- the slice at offset (0, 0, 4) of extent (256, 4096, 1) reads (b, n, 0) at (b, n, 4)
  exact extractStridedSlice_apply ![0, 0, 4] x0 Facts.slices_S256x4096x5_S256x4096x1_0_0_4 (ix3 b n (0 : Fin 1))
    (ix3 b n (4 : Fin 5)) (fun a => match a with
      | ⟨0, _⟩ => by show b.val = 0 + b.val; omega
      | ⟨1, _⟩ => by show n.val = 0 + n.val; omega
      | ⟨2, _⟩ => by show 4 = 4 + 0; omega)

/-- THE PRECONDITION GIVES THE TYPES' RANGE: its last two conjuncts are "every type is at least 0" and "every type is
    below 512", each a conjunction over the whole [256, 4096] array; read at (b, n) they are the two bounds. -/
theorem typesInRange_of_pre [hF : Cert.Pre_finite_inputs.Facts]
    (x0 : FVec Ideal Cert.Pre_finite_inputs.S256x4096x5 .f32) (x1 : IVec Cert.Pre_finite_inputs.S256x8192x2 32)
    (x2 : FVec Ideal Cert.Pre_finite_inputs.S512x122 .f32)
    (h : Cert.Pre_finite_inputs.fn (F := Ideal) x0 x1 x2 = (fun _ => 1#1)) :
    Cert.Encoder.TypesInRange x0 := by
  have h0 := congrFun h ix0
  unfold fn fn_part1 at h0
  dsimp only at h0
  rw [andi_apply, andi_apply, andi_apply, IntOp.andi_eq_one, IntOp.andi_eq_one, IntOp.andi_eq_one] at h0
  obtain ⟨⟨-, hge⟩, hlt⟩ := h0
  intro b n
  have hge' := Host.reduce_andi_all _ _ _ _ ix0 hge (ix2 b n)
  have hlt' := Host.reduce_andi_all _ _ _ _ ix0 hlt (ix2 b n)
  have hge'' : IntOp.cmpi .sge (types x0 (ix2 b n)) 0#32 = 1#1 := hge'
  have hlt'' : IntOp.cmpi .slt (types x0 (ix2 b n)) 512#32 = 1#1 := hlt'
  rw [types_apply] at hge'' hlt''
  exact ⟨sge_zero _ hge'', slt_512 _ hlt''⟩

end Cert.Encoder.Pre

end
-- ==== Proof.CountsSame.lean ====
/-
  The fact counts are the same in the two programs.

  Both programs compute the counts [256, 4096] from the facts [256, 8192, 2] by the same seventeen host operations:
  take column 1 of each fact (the entity it names), add 4096 times the fact's batch, flatten to 256 · 8192 positions,
  add a one at each such position of a zero vector of 256 · 4096 entries, view the vector as [256, 4096], and set
  column 4095 to zero. In the first program these operations run before the region and their result is what the body
  reads as counts; in the reference they are seventeen of its stages. Written out, the two are one and the same
  composition of the same operations applied to the facts; they differ only in which program's copy of each shape
  relation's proof and of each scatter's dimension record they cite, and the records have the same literal fields.
  The scatters themselves are never opened.
-/
import proofs.«103184_j28845000360091_2_alg».proof.Proof.Gen.KernelIdeal.Frame
import proofs.«103184_j28845000360091_2_alg».proof.Proof.RefReadP
import Idealize.ShloMosaic.Lib.StableHlo.Run
import Idealize.ShloMosaic.PureOps.Ideal

noncomputable section

namespace Cert.Encoder.Counts

open Idealize.ShloMosaic Idealize.ShloMosaic.TcCoe Idealize.SL.Sem Idealize.ShloMosaic.StableHlo

section Kernel
open Cert.KernelIdeal Cert.KernelIdeal.Gen

/-- The fact counts as a function of the facts: column 1 of each fact (the entity it names), plus 4096 times the fact's
    batch, flattened; a one added at each such position of a zero vector of 256 · 4096 entries; the vector viewed
    [256, 4096]; and column 4095 of that set to zero. -/
def counts (x1 : (⟨S256x8192x2, .i32⟩ : BufTy).Contents (Elt Ideal)) : (⟨S256x4096, .f32⟩ : BufTy).Contents (Elt Ideal) :=
  Host.scatter scatter_S256x4096_S1_S256_0_1_1_0 (fun _ b => b)
    (shapeCast S256x4096
      (Host.scatterAdd scatter_S1048576_S2097152x1_S2097152_n_0_0_1
        (broadcastInDim S1048576 ![] bcast_S_S1048576 (constant (F := Ideal) S_ .f32 0x00000000#32))
        (broadcastInDim S2097152x1 ![0] bcast_S2097152_S2097152x1_0
          (shapeCast S2097152
            (addi
              (shapeCast S256x8192 (extractStridedSlice S256x8192x1 ![0, 0, 1] x1 slices_S256x8192x2_S256x8192x1_0_0_1)
                shapeCasts_S256x8192x1_S256x8192)
              (broadcastInDim S256x8192 ![0, 1] bcast_S256x1_S256x8192_0_1
                (muli (broadcastInDim S256x1 ![0] bcast_S256_S256x1_0 (iotaInDim S256 32 0))
                  (broadcastInDim S256x1 ![] bcast_S_S256x1 (constantI S_ 32 4096#32)))))
            shapeCasts_S256x8192_S2097152))
        (broadcastInDim S2097152 ![] bcast_S_S2097152 (constant (F := Ideal) S_ .f32 0x3F800000#32)))
      shapeCasts_S1048576_S256x4096)
    (broadcastInDim S1 ![] bcast_S_S1 (constantI S_ 32 4095#32))
    (broadcastInDim S256 ![] bcast_S_S256 (constant (F := Ideal) S_ .f32 0x00000000#32))

/-- What the counts buffer holds when the region is entered: the counts of the facts the launch memory holds. -/
theorem V_counts (m : (ℓ : Loc nD τ sig) → Buf (Elt Ideal) ℓ) (c : Dev nD) :
    (Gen.V (F := Ideal) m c main_v16 : S256x4096.Idx → Ideal .f32)
      = counts (m ((c : Thread nD τ).loc main_arg1)) := by
  dsimp only [Gen.V, Gen.hostOps0]
  after_results
  rfl

end Kernel

/-! ## The same seventeen operations in the two programs -/

/-- The two programs' dimension records of the scatter-add of ones: the same literal fields. -/
theorem scatterAdd_dims :
    Cert.KernelIdeal.scatter_S1048576_S2097152x1_S2097152_n_0_0_1
      = Cert.ReferenceIdeal.scatter_S1048576_S2097152x1_S2097152_n_0_0_1 := rfl

/-- The two programs' dimension records of the scatter that clears column 4095: the same literal fields. -/
theorem scatter_dims :
    Cert.KernelIdeal.scatter_S256x4096_S1_S256_0_1_1_0 = Cert.ReferenceIdeal.scatter_S256x4096_S1_S256_0_1_1_0 := rfl

/-- The reference's counts are the same function of the facts. -/
theorem counts_eq_ref (x1 : (⟨Cert.KernelIdeal.S256x8192x2, .i32⟩ : BufTy).Contents (Elt Ideal)) :
    counts x1 = Cert.ReferenceIdeal.ReadP.val_main_v34 (F := Ideal) x1 := by
  unfold counts
  unfold Cert.ReferenceIdeal.ReadP.val_main_v34 Cert.ReferenceIdeal.ReadP.val_main_v33 Cert.ReferenceIdeal.ReadP.val_main_cst_8
    Cert.ReferenceIdeal.ReadP.val_main_v32 Cert.ReferenceIdeal.ReadP.val_main_c_7 Cert.ReferenceIdeal.ReadP.val_main_v31
    Cert.ReferenceIdeal.ReadP.val_main_v30 Cert.ReferenceIdeal.ReadP.val_main_v29 Cert.ReferenceIdeal.ReadP.val_main_v28
    Cert.ReferenceIdeal.ReadP.val_main_cst_6 Cert.ReferenceIdeal.ReadP.val_main_v27 Cert.ReferenceIdeal.ReadP.val_main_cst_5
    Cert.ReferenceIdeal.ReadP.val_main_v26 Cert.ReferenceIdeal.ReadP.val_main_v25 Cert.ReferenceIdeal.ReadP.val_main_v24
    Cert.ReferenceIdeal.ReadP.val_main_v23 Cert.ReferenceIdeal.ReadP.val_main_v22 Cert.ReferenceIdeal.ReadP.val_main_c
    Cert.ReferenceIdeal.ReadP.val_main_v21 Cert.ReferenceIdeal.ReadP.val_main_v20 Cert.ReferenceIdeal.ReadP.val_main_v19
    Cert.ReferenceIdeal.ReadP.val_main_v18
  rw [scatterAdd_dims, scatter_dims]

/-- THE COUNTS ARE THE SAME: what the body reads as counts is what the reference computes from the same facts. -/
theorem counts_same (m : (ℓ : Loc Cert.KernelIdeal.nD Cert.KernelIdeal.τ Cert.KernelIdeal.sig) → Buf (Elt Ideal) ℓ)
    (c : Dev Cert.KernelIdeal.nD) :
    (Cert.KernelIdeal.Gen.V (F := Ideal) m c Cert.KernelIdeal.main_v16 : Cert.KernelIdeal.S256x4096.Idx → Ideal .f32)
      = Cert.ReferenceIdeal.ReadP.val_main_v34 (F := Ideal)
          (m ((c : Thread Cert.KernelIdeal.nD Cert.KernelIdeal.τ).loc Cert.KernelIdeal.main_arg1)) :=
  (V_counts m c).trans (counts_eq_ref _)

end Cert.Encoder.Counts

end
-- ==== Proof.lean ====
/-
  THE CLAIM: an entity encoder on the accelerator and its plain reference compute the same array.

  For entities [256, 4096, 5], facts [256, 8192, 2] and a type table [512, 122], both programs produce, for batch b and
  entity n, the row of 128 numbers: the entity's column 1; its azimuth az (column 2) as |az| / 180 and as
  (|90 − az| if az ≥ −90, else 90 + |az + 180|) / 180; its column 3; the number of facts naming the entity (a histogram
  that the two programs compute by the same host operations, never opened here); 1 or 0 as that number is positive;
  and the table's row that the entity's type (column 4 read as an integer) selects. The accelerator program takes the
  table row as a product with the indicator row "type = k" (k = 0 … 511), which is the table's row when the type is one
  of the table's row numbers; the reference indexes the table. The precondition says every float is finite and every
  type is a row number of the table (outside that range the reference indexes out of range), and under it the two
  results are equal as extended reals, element by element.

  The accelerator program's frame (it runs, faults nowhere, leaves its arguments unchanged) holds at both readings of the
  floats by one argument: its body is 32 trips, trip r storing row r of the result block in seven column groups, and
  after the trips the block is one function of the three input blocks whatever it held before.
-/
import proofs.«103184_j28845000360091_2_alg».proof.Defs
import proofs.«103184_j28845000360091_2_alg».proof.Proof.Gen.Kernel
import proofs.«103184_j28845000360091_2_alg».proof.Proof.Gen.KernelIdeal
import proofs.«103184_j28845000360091_2_alg».proof.Proof.Gen.ReferenceIdeal
import proofs.«103184_j28845000360091_2_alg».proof.Proof.Gen.Pre_finite_inputs
import proofs.«103184_j28845000360091_2_alg».proof.Proof.KernelBitsBody
import proofs.«103184_j28845000360091_2_alg».proof.Proof.KernelBody
import proofs.«103184_j28845000360091_2_alg».proof.Proof.KernelValue
import proofs.«103184_j28845000360091_2_alg».proof.Proof.RefRun
import proofs.«103184_j28845000360091_2_alg».proof.Proof.RefValue
import proofs.«103184_j28845000360091_2_alg».proof.Proof.PreRange
import proofs.«103184_j28845000360091_2_alg».proof.Proof.CountsSame
import Idealize.ShloMosaic.Adequacy
import Idealize.ShloMosaic.Init

noncomputable section

namespace Cert.Proof

open Idealize.ShloMosaic Idealize.ShloMosaic.TcCoe Idealize.SL.Sem

/-- The accelerator program as printed runs and leaves its arguments unchanged. -/
theorem frame_p [hPre : Cert.Pre_finite_inputs.Facts] : Cert.frame_Kernel (hKernel := Cert.Kernel.Gen.facts) :=
  fun m ρ _ => Cert.Kernel.Body.frame m ρ

/-- So does its reading over the extended reals. -/
theorem frame_pi [hPre : Cert.Pre_finite_inputs.Facts] : Cert.frame_KernelIdeal (hKernelIdeal := Cert.KernelIdeal.Gen.facts) :=
  fun m ρ _ => Cert.KernelIdeal.Body.frame m ρ

/-- The reference runs and leaves its arguments unchanged: its run with the result dropped. -/
theorem frame_ri [hPre : Cert.Pre_finite_inputs.Facts] : Cert.frame_ReferenceIdeal (hReferenceIdeal := Cert.ReferenceIdeal.Gen.facts) :=
  fun m ρ _ => (θ_run Cert.ReferenceIdeal.defs _ _).mono (fun _ h c => (h c).2)
    (Cert.ReferenceIdeal.RunValue.run (F := Ideal) m ρ)

/-- Over the extended reals, from memories that agree on the arguments, both programs end with the result at the
    specification of the entities, the fact counts and the table. -/
theorem algebraic [hPre : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  -- the precondition bounds every entity's type, in the array the region finds (which is the argument as launched)
  have harg0 : ∀ c : Dev Cert.KernelIdeal.nD, Cert.KernelIdeal.OutValue.entA m c
      = m ((c.tc : Thread Cert.KernelIdeal.nD Cert.KernelIdeal.τ).loc Cert.KernelIdeal.main_arg0) :=
    fun c => Cert.KernelIdeal.Gen.V_main_arg0 m c
  have harg2 : ∀ c : Dev Cert.KernelIdeal.nD, Cert.KernelIdeal.OutValue.tabA m c
      = m ((c.tc : Thread Cert.KernelIdeal.nD Cert.KernelIdeal.τ).loc Cert.KernelIdeal.main_arg2) :=
    fun c => Cert.KernelIdeal.Gen.V_main_arg2 m c
  have hin : ∀ c : Dev Cert.KernelIdeal.nD, Cert.Encoder.TypesInRange (Cert.KernelIdeal.OutValue.entA m c) := fun c => by
    rw [harg0 c]
    exact Cert.Encoder.Pre.typesInRange_of_pre _ _ _ (hpre c)
  refine ⟨fun c => Cert.Encoder.out (Cert.KernelIdeal.OutValue.entA m c) (Cert.KernelIdeal.OutValue.cntA m c) (Cert.KernelIdeal.OutValue.tabA m c),
    Cert.KernelIdeal.OutValue.run m ρ hin, ?_⟩
  refine (θ_run Cert.ReferenceIdeal.defs _ _).mono (fun _ h c => ⟨(h c).1.trans ?_, (h c).2⟩)
    (Cert.ReferenceIdeal.RunValue.run (F := Ideal) m' ρ')
  rw [(hagree c).1, (hagree c).2.1, (hagree c).2.2]
  have hin' : Cert.Encoder.TypesInRange (m ((c.tc : Thread Cert.KernelIdeal.nD Cert.KernelIdeal.τ).loc Cert.KernelIdeal.main_arg0)) := by
    have := hin c; rwa [harg0 c] at this
  rw [Cert.ReferenceIdeal.RefValue.ref_is_out _ _ _ hin']
  show _ = Cert.Encoder.out (Cert.KernelIdeal.OutValue.entA m c) (Cert.KernelIdeal.OutValue.cntA m c) (Cert.KernelIdeal.OutValue.tabA m c)
  rw [harg0 c, harg2 c, show Cert.KernelIdeal.OutValue.cntA m c = _ from Cert.Encoder.Counts.counts_same m c]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
